-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S2x1600000 : Shape := ⟨2, ![2, 1600000]⟩
abbrev S5000 : Shape := ⟨1, ![5000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S1600000 .f32) (main_arg2 : FVec F S128x128 .f32) (main_arg3 : FVec F S128 .f32) (main_arg4 : FVec F S128x128 .f32) (main_arg5 : FVec F S128 .f32) (main_arg6 : IVec S2x1600000 32) (main_arg7 : IVec S5000 32) (main_arg8 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S2x1600000 : Shape := ⟨2, ![2, 1600000]⟩
abbrev S5000 : Shape := ⟨1, ![5000]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩

abbrev nBuf : Space → Nat
  | .hbm => 99
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S2x1600000, .i32⟩
  | .hbm, ⟨7, _⟩ => ⟨S5000, .i32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000x128, .f32⟩
  | .hbm, ⟨42, _⟩ => ⟨S1700000x1, .f32⟩
  | .hbm, ⟨43, _⟩ => ⟨S1700000x128, .f32⟩
  | .hbm, ⟨44, _⟩ => ⟨S1700000x128, .f32⟩
  | .hbm, ⟨45, _⟩ => ⟨S_, .f32⟩
  | .hbm, ⟨46, _⟩ => ⟨S100000x128, .f32⟩
  | .hbm, ⟨47, _⟩ => ⟨S1700000x1, .i32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S_, .i32⟩
  | .hbm, ⟨68, _⟩ => ⟨S5000, .i32⟩
  | .hbm, ⟨69, _⟩ => ⟨S5000, .i1⟩
  | .hbm, ⟨70, _⟩ => ⟨S_, .i32⟩
  | .hbm, ⟨71, _⟩ => ⟨S5000, .i32⟩
  | .hbm, ⟨72, _⟩ => ⟨S5000, .i32⟩
  | .hbm, ⟨73, _⟩ => ⟨S5000, .i32⟩
  | .hbm, ⟨74, _⟩ => ⟨S5000x1, .i32⟩
  | .hbm, ⟨75, _⟩ => ⟨S5000x1, .f32⟩
  | .hbm, ⟨76, _⟩ => ⟨S_, .i32⟩
  | .hbm, ⟨77, _⟩ => ⟨S5000, .i32⟩
  | .hbm, ⟨78, _⟩ => ⟨S5000, .i1⟩
  | .hbm, ⟨79, _⟩ => ⟨S_, .i32⟩
  | .hbm, ⟨80, _⟩ => ⟨S5000, .i32⟩
  | .hbm, ⟨81, _⟩ => ⟨S5000, .i32⟩
  | .hbm, ⟨82, _⟩ => ⟨S5000, .i32⟩
  | .hbm, ⟨83, _⟩ => ⟨S5000x1, .i32⟩
  | .hbm, ⟨84, _⟩ => ⟨S5000x128, .f32⟩
  | .hbm, ⟨85, _⟩ => ⟨S5000x128, .f32⟩
  | .hbm, ⟨86, _⟩ => ⟨S5000x128, .f32⟩
  | .hbm, ⟨87, _⟩ => ⟨S1x128, .f32⟩
  | .hbm, ⟨88, _⟩ => ⟨S5000x128, .f32⟩
  | .hbm, ⟨89, _⟩ => ⟨S5000x128, .f32⟩
  | .hbm, ⟨90, _⟩ => ⟨S_, .i32⟩
  | .hbm, ⟨91, _⟩ => ⟨S5000, .i32⟩
  | .hbm, ⟨92, _⟩ => ⟨S5000, .i1⟩
  | .hbm, ⟨93, _⟩ => ⟨S_, .i32⟩
  | .hbm, ⟨94, _⟩ => ⟨S5000, .i32⟩
  | .hbm, ⟨95, _⟩ => ⟨S5000, .i32⟩
  | .hbm, ⟨96, _⟩ => ⟨S5000, .i32⟩
  | .hbm, ⟨97, _⟩ => ⟨S5000x1, .i32⟩
  | .hbm, ⟨98, _⟩ => ⟨S5000, .i32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_c_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_12 : Ref sig .tc := ⟨.hbm, 90, rfl⟩
abbrev main_v65 : Ref sig .tc := ⟨.hbm, 91, rfl⟩
abbrev main_v66 : Ref sig .tc := ⟨.hbm, 92, rfl⟩
abbrev main_c_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x128_0_1 : S5000x1.BroadcastsInDim S5000x128 (![0, 1] : Fin 2 → Fin S5000x128.rank)
  bcast_S128_S1x128_1 : S128.BroadcastsInDim S1x128 (![1] : Fin 1 → Fin S1x128.rank)
  bcast_S1x128_S5000x128_0_1 : S1x128.BroadcastsInDim S5000x128 (![0, 1] : Fin 2 → Fin S5000x128.rank)
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x1_S5000x1_S5000x1_1_0_n_n_0_1_11_wf : GatherDims.WF S100000x1 S5000x1 S5000x1 [1] [0] [] [0] [] 1 ![1, 1]
  gather_S100000x128_S5000x1_S5000x128_1_0_n_n_0_1_1128_wf : GatherDims.WF S100000x128 S5000x1 S5000x128 [1] [0] [] [0] [] 1 ![1, 128]
  gather_S100000_S5000x1_S5000_n_0_n_n_0_1_1_wf : GatherDims.WF S100000 S5000x1 S5000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x1_S5000x1_S5000x1_1_0_n_n_0_1_11 : GatherDims S100000x1 S5000x1 S5000x1 where
  offsetDims := [1]
  collapsedSliceDims := [0]
  operandBatchingDims := []
  startIndicesBatchingDims := []
  startIndexMap := [0]
  indexVectorDim := 1
  sliceSizes := ![1, 1]
  wf := gather_S100000x1_S5000x1_S5000x1_1_0_n_n_0_1_11_wf
def gather_S100000x128_S5000x1_S5000x128_1_0_n_n_0_1_1128 : GatherDims S100000x128 S5000x1 S5000x128 where
  offsetDims := [1]
  collapsedSliceDims := [0]
  operandBatchingDims := []
  startIndicesBatchingDims := []
  startIndexMap := [0]
  indexVectorDim := 1
  sliceSizes := ![1, 128]
  wf := gather_S100000x128_S5000x1_S5000x128_1_0_n_n_0_1_1128_wf
def gather_S100000_S5000x1_S5000_n_0_n_n_0_1_1 : GatherDims S100000 S5000x1 S5000 where
  offsetDims := []
  collapsedSliceDims := [0]
  operandBatchingDims := []
  startIndicesBatchingDims := []
  startIndexMap := [0]
  indexVectorDim := 1
  sliceSizes := ![1]
  wf := gather_S100000_S5000x1_S5000_n_0_n_n_0_1_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S2x1600000 : Shape := ⟨2, ![2, 1600000]⟩
abbrev S5000 : Shape := ⟨1, ![5000]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S5000x1 : Shape := ⟨2, ![5000, 1]⟩
abbrev S5000x128 : Shape := ⟨2, ![5000, 128]⟩

abbrev nBuf : Space → Nat
  | .hbm => 150
  | .vmem => 0
  | .smem => 0
  | _ => 0

abbrev hbmTy0_0 (i : Nat) : BufTy := match i % 128 with
  | 0 => ⟨S100000x128, .f32⟩
  | 1 => ⟨S1600000, .f32⟩
  | 2 => ⟨S128x128, .f32⟩
  | 3 => ⟨S128, .f32⟩
  | 4 => ⟨S128x128, .f32⟩
  | 5 => ⟨S128, .f32⟩
  | 6 => ⟨S2x1600000, .i32⟩
  | 7 => ⟨S5000, .i32⟩
  | 8 => ⟨S100000, .i32⟩
  | 9 => ⟨S1x1600000, .i32⟩
  | 10 => ⟨S1600000, .i32⟩
  | 11 => ⟨S1x1600000, .i32⟩
  | 12 => ⟨S1600000, .i32⟩
  | 13 => ⟨S100000, .i32⟩
  | 14 => ⟨S1700000, .i32⟩
  | 15 => ⟨S1700000, .i32⟩
  | 16 => ⟨S_, .f32⟩
  | 17 => ⟨S100000, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000, .i32⟩
  | 75 => ⟨S1700000, .i32⟩
  | 76 => ⟨S1700000, .i32⟩
  | 77 => ⟨S_, .f32⟩
  | 78 => ⟨S100000, .f32⟩
  | 79 => ⟨S1700000, .f32⟩
  | 80 => ⟨S_, .f32⟩
  | 81 => ⟨S100000, .f32⟩
  | 82 => ⟨S1700000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S100000x128, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x128, .f32⟩
  | 122 => ⟨S1700000x1, .f32⟩
  | 123 => ⟨S1700000x128, .f32⟩
  | 124 => ⟨S1700000x128, .f32⟩
  | 125 => ⟨S_, .f32⟩
  | 126 => ⟨S100000x128, .f32⟩
  | 127 => ⟨S1700000x1, .i32⟩
  | _ => ⟨S100000x128, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .i32⟩
  | 5 => ⟨S5000, .i32⟩
  | 6 => ⟨S5000, .i1⟩
  | 7 => ⟨S_, .i32⟩
  | 8 => ⟨S5000, .i32⟩
  | 9 => ⟨S5000, .i32⟩
  | 10 => ⟨S5000, .i32⟩
  | 11 => ⟨S5000x1, .i32⟩
  | 12 => ⟨S5000x128, .f32⟩
  | 13 => ⟨S_, .i32⟩
  | 14 => ⟨S5000, .i32⟩
  | 15 => ⟨S5000, .i1⟩
  | 16 => ⟨S_, .i32⟩
  | 17 => ⟨S5000, .i32⟩
  | 18 => ⟨S5000, .i32⟩
  | 19 => ⟨S5000, .i32⟩
  | 20 => ⟨S5000x1, .i32⟩
  | 21 => ⟨S5000, .i32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v61 : Ref sig .tc := ⟨.hbm, 91, rfl⟩
abbrev main_c_13 : Ref sig .tc := ⟨.hbm, 92, rfl⟩
abbrev main_v62 : Ref sig .tc := ⟨.hbm, 93, rfl⟩
abbrev main_v63 : Ref sig .tc := ⟨.hbm, 94, rfl⟩
abbrev main_c_14 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_15 : Ref sig .tc := ⟨.hbm, 102, rfl⟩
abbrev main_v70 : Ref sig .tc := ⟨.hbm, 103, rfl⟩
abbrev main_v71 : Ref sig .tc := ⟨.hbm, 104, rfl⟩
abbrev main_c_16 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_17 : Ref sig .tc := ⟨.hbm, 113, rfl⟩
abbrev main_v79 : Ref sig .tc := ⟨.hbm, 114, rfl⟩
abbrev main_v80 : Ref sig .tc := ⟨.hbm, 115, rfl⟩
abbrev main_c_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_19 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_c_20 : Ref sig .tc := ⟨.hbm, 132, rfl⟩
abbrev main_v95 : Ref sig .tc := ⟨.hbm, 133, rfl⟩
abbrev main_v96 : Ref sig .tc := ⟨.hbm, 134, rfl⟩
abbrev main_c_21 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_c_22 : Ref sig .tc := ⟨.hbm, 141, rfl⟩
abbrev main_v102 : Ref sig .tc := ⟨.hbm, 142, rfl⟩
abbrev main_v103 : Ref sig .tc := ⟨.hbm, 143, rfl⟩
abbrev main_c_23 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S5000 : S_.BroadcastsInDim S5000 (![] : Fin 0 → Fin S5000.rank)
  bcast_S5000_S5000x1_0 : S5000.BroadcastsInDim S5000x1 (![0] : Fin 1 → Fin S5000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S5000x1_S5000x128_1_0_n_n_0_1_1128_wf : GatherDims.WF S100000x128 S5000x1 S5000x128 [1] [0] [] [0] [] 1 ![1, 128]
  gather_S100000_S5000x1_S5000_n_0_n_n_0_1_1_wf : GatherDims.WF S100000 S5000x1 S5000 [] [0] [] [0] [] 1 ![1]

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S5000x1_S5000x128_1_0_n_n_0_1_1128 : GatherDims S100000x128 S5000x1 S5000x128 where
  offsetDims := [1]
  collapsedSliceDims := [0]
  operandBatchingDims := []
  startIndicesBatchingDims := []
  startIndexMap := [0]
  indexVectorDim := 1
  sliceSizes := ![1, 128]
  wf := gather_S100000x128_S5000x1_S5000x128_1_0_n_n_0_1_1128_wf
def gather_S100000_S5000x1_S5000_n_0_n_n_0_1_1 : GatherDims S100000 S5000x1 S5000 where
  offsetDims := []
  collapsedSliceDims := [0]
  operandBatchingDims := []
  startIndicesBatchingDims := []
  startIndexMap := [0]
  indexVectorDim := 1
  sliceSizes := ![1]
  wf := gather_S100000_S5000x1_S5000_n_0_n_n_0_1_1_wf

class Facts : Prop extends Facts₀ where

variable [Facts]
-- ==== Proof.LibGcnSpec.lean ====
/-
  Two layers of a graph convolution with symmetric degree normalisation, on the extended reals, in two arrangements,
  and that the two agree.

  The graph: `E` edges over `N` nodes; edge `a` reads its features from node `σ a` and is added into node `r`
  exactly when `land a r` holds (an edge whose target is out of range lands nowhere); `w a` is its weight and
  `dis u` the per-node scale (the inverse square root of the weighted in-degree, or zero).

  * The reference arrangement weights every edge by `(dis (σ a) · w a) · dis (δ a)`, where `δ a` is the target
    read back as a node (`δ a = r` whenever `land a r`), aggregates `X W` with those weights and adds the bias.
  * The other arrangement scales the rows of `X W` by `dis` BEFORE the edges read them, aggregates with the bare
    weights `w a`, and scales row `r` of the aggregate by `dis r` afterwards.

  They agree because a node's scale does not depend on the edge: `(∑ₐ tₐ) · dis r = ∑ₐ tₐ · dis r`. On the extended
  reals that law needs the factor to be a non-negative number other than `+∞` — which every `dis r` is, whatever
  the inputs: the inverse square root of a positive extended real is a non-negative real (`+∞ ↦ 0`), and elsewhere
  `dis` is zero. Products are only re-associated and commuted, which the extended reals allow without conditions.
  No entry of the inputs is asked to be finite.
-/
import Idealize.ShloMosaic.PureOps.Ideal

noncomputable section

open scoped BigOperators

namespace Cert.Proof.Gcn

open Idealize.ShloMosaic

/-! ## The per-node scale is a non-negative number below `+∞` -/

/-- The inverse square root of a positive extended real is non-negative and not `+∞`. -/
theorem rsqrt_nonneg_ne_top {x : EReal} (hx : 0 < x) : 0 ≤ Ideal.rsqrt x ∧ Ideal.rsqrt x ≠ ⊤ := by
  induction x using EReal.rec with
  | bot => exact absurd hx (by simp)
  | top => exact ⟨by simp, by simp⟩
  | coe r =>
    have hr : 0 < r := by exact_mod_cast hx
    rw [Ideal.rsqrt_coe, if_neg (not_lt.2 hr.le), if_neg hr.ne']
    exact ⟨by exact_mod_cast (inv_nonneg.2 (Real.sqrt_nonneg r)), EReal.coe_ne_top _⟩

/-- The guarded scale — the inverse square root where the degree is positive, zero elsewhere — is non-negative
    and not `+∞`. -/
theorem guarded_nonneg_ne_top (deg : EReal) :
    0 ≤ (if 0 < deg then Ideal.rsqrt deg else 0) ∧ (if 0 < deg then Ideal.rsqrt deg else 0) ≠ ⊤ := by
  by_cases h : 0 < deg
  · rw [if_pos h]; exact rsqrt_nonneg_ne_top h
  · rw [if_neg h]; exact ⟨le_rfl, EReal.zero_ne_top⟩

/-! ## A non-negative number below `+∞` distributes over a finite sum -/

theorem sum_mul_of_nonneg {ι : Type*} (s : Finset ι) (f : ι → EReal) {x : EReal} (hx : 0 ≤ x) (hx' : x ≠ ⊤) :
    (∑ i ∈ s, f i) * x = ∑ i ∈ s, f i * x := by
  classical
  induction s using Finset.induction_on with
  | empty => simp
  | insert a s ha ih =>
    rw [Finset.sum_insert ha, Finset.sum_insert ha, EReal.right_distrib_of_nonneg_of_ne_top hx hx', ih]

/-! ## The two arrangements -/

variable {N E K : ℕ}

/-- One aggregation: entry `(r, c)` is the sum over the edges landing on `r` of the source row's entry times
    the edge's weight (from zero, as the scatter starts from a zero array). -/
def agg (land : Fin E → Fin N → Prop) [∀ a r, Decidable (land a r)] (σ : Fin E → Fin N)
    (H : Fin N → Fin K → EReal) (v : Fin E → EReal) (r : Fin N) (c : Fin K) : EReal :=
  0 + ∑ a : Fin E, if land a r then H (σ a) c * v a else 0

/-- The matrix product `X W`. -/
def dense (X : Fin N → Fin K → EReal) (W : Fin K → Fin K → EReal) (u : Fin N) (c : Fin K) : EReal :=
  ∑ j : Fin K, X u j * W j c

/-- The reference's weight of an edge: `(dis (σ a) · w a) · dis (δ a)`. -/
def edgeNorm (σ δ : Fin E → Fin N) (dis : Fin N → EReal) (w : Fin E → EReal) (a : Fin E) : EReal :=
  (dis (σ a) * w a) * dis (δ a)

section
variable (land : Fin E → Fin N → Prop) [∀ a r, Decidable (land a r)] (σ δ : Fin E → Fin N)
  (dis : Fin N → EReal) (w : Fin E → EReal)
  (X : Fin N → Fin K → EReal) (W1 : Fin K → Fin K → EReal) (b1 : Fin K → EReal)
  (W2 : Fin K → Fin K → EReal) (b2 : Fin K → EReal)

/-- The reference's hidden layer: the first convolution, rectified. -/
def refHidden (u : Fin N) (j : Fin K) : EReal :=
  max (agg land σ (dense X W1) (edgeNorm σ δ dis w) u j + b1 j) 0

/-- The reference's output: the second convolution of the hidden layer. -/
def refOut (r : Fin N) (c : Fin K) : EReal :=
  agg land σ (dense (refHidden land σ δ dis w X W1 b1) W2) (edgeNorm σ δ dis w) r c + b2 c

/-- The first product with its rows already scaled. -/
def kerFirst (u : Fin N) (j : Fin K) : EReal := dense X W1 u j * dis u

/-- The other arrangement's hidden layer: the aggregate of the scaled rows with the bare weights, its rows scaled,
    the bias added, rectified. -/
def kerHidden (u : Fin N) (j : Fin K) : EReal :=
  max (agg land σ (kerFirst dis X W1) w u j * dis u + b1 j) 0

/-- The second product of the hidden layer, its rows scaled. -/
def kerSecond (u : Fin N) (c : Fin K) : EReal := dense (kerHidden land σ dis w X W1 b1) W2 u c * dis u

/-- The other arrangement's output. -/
def kerOut (r : Fin N) (c : Fin K) : EReal :=
  dis r * agg land σ (kerSecond land σ dis w X W1 b1 W2) w r c + b2 c

variable {land σ δ dis w}

/-- Scaling an aggregate's row by a non-negative number below `+∞` scales every edge's weight. -/
theorem agg_mul (H : Fin N → Fin K → EReal) (v : Fin E → EReal) (r : Fin N) (c : Fin K) {x : EReal}
    (hx : 0 ≤ x) (hx' : x ≠ ⊤) :
    agg land σ H v r c * x = agg land σ H (fun a => v a * x) r c := by
  unfold agg
  rw [zero_add, zero_add, sum_mul_of_nonneg _ _ hx hx']
  refine Finset.sum_congr rfl fun a _ => ?_
  by_cases h : land a r
  · rw [if_pos h, if_pos h, mul_assoc]
  · rw [if_neg h, if_neg h, zero_mul]

/-- THE LAW: aggregating rows scaled by `dis` with the bare weights and scaling row `r` of the result by `dis r`
    is aggregating the unscaled rows with the reference's weights. -/
theorem agg_scaled (hdis : ∀ u, 0 ≤ dis u ∧ dis u ≠ ⊤) (hδ : ∀ a r, land a r → δ a = r)
    (D : Fin N → Fin K → EReal) (r : Fin N) (c : Fin K) :
    agg land σ (fun u j => D u j * dis u) w r c * dis r = agg land σ D (edgeNorm σ δ dis w) r c := by
  rw [agg_mul _ _ _ _ (hdis r).1 (hdis r).2]
  unfold agg
  refine congrArg (0 + ·) (Finset.sum_congr rfl fun a _ => ?_)
  by_cases h : land a r
  · rw [if_pos h, if_pos h]
    unfold edgeNorm
    rw [hδ a r h]
    simp only [mul_assoc]
  · rw [if_neg h, if_neg h]

/-- The two hidden layers are one. -/
theorem kerHidden_eq (hdis : ∀ u, 0 ≤ dis u ∧ dis u ≠ ⊤) (hδ : ∀ a r, land a r → δ a = r) :
    kerHidden land σ dis w X W1 b1 = refHidden land σ δ dis w X W1 b1 := by
  funext u j
  unfold kerHidden refHidden
  rw [show kerFirst dis X W1 = fun u j => dense X W1 u j * dis u from rfl, agg_scaled hdis hδ]

/-- THE TWO ARRANGEMENTS AGREE, entry by entry. -/
theorem kerOut_eq_refOut (hdis : ∀ u, 0 ≤ dis u ∧ dis u ≠ ⊤) (hδ : ∀ a r, land a r → δ a = r)
    (r : Fin N) (c : Fin K) :
    kerOut land σ dis w X W1 b1 W2 b2 r c = refOut land σ δ dis w X W1 b1 W2 b2 r c := by
  unfold kerOut refOut
  rw [mul_comm,
    show kerSecond land σ dis w X W1 b1 W2 = fun u j => dense (kerHidden land σ dis w X W1 b1) W2 u j * dis u from rfl,
    agg_scaled hdis hδ, kerHidden_eq X W1 b1 hdis hδ]

end

end Cert.Proof.Gcn

end
-- ==== Proof.KernelRun.lean ====
/-
  The kernel program's run with EVERY buffer named: every weakly fair execution of @main terminates, and in every
  final state each unscoped TensorCore buffer holds what the program's seven stretches leave in it — the contents
  `Gen.W7 m ρ c`, a fold of the host operations and of the two regions' write-backs over the launch memory.
  The result buffers' contents are read off that fold elsewhere; here only the run is stated, by the same launch
  theorem over the same segments as the frame, keeping the reading of the last thread state against the final
  state whole instead of projecting it to the arguments.
-/
import proofs.«152032_j36206574306115_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable [Facts]
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault, and every final state has each
    unscoped TensorCore buffer of each core at the contents the fold `Gen.W7` names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.ValueRun

end
-- ==== Proof.KernelStages.lean ====
/-
  The kernel program's host side as named whole-array functions of the argument arrays, in the program's own
  operations: the edge lists with the self loops appended (source words `srcWords`, target words `dstWords`, weights
  `weights`), the weighted in-degree `degree` (the weights scatter-added by target), the per-node scale `scale`
  (its inverse square root where positive, zero elsewhere; `scaleCol` the same as a column), one aggregation step
  `aggr` (rows gathered by normalised source, times the edge weight, scatter-added by target into zeros), and the
  epilogue `outRows` (the masked rows of the last aggregate, each times its scale, plus the bias).
-/
import proofs.«152032_j36206574306115_2_alg».proof.Proof.Gen.KernelIdeal

noncomputable section

namespace Cert.KernelIdeal.Stage

open Cert.KernelIdeal Cert.KernelIdeal.Gen Idealize.ShloMosaic

variable {F : FTy → Type} [FloatOps F]

/-- Row `k` of the 2×E edge list as a vector of E words, the node numbers 0 … N−1 appended (the self loops). -/
def srcWords (x6 : IVec S2x1600000 32) : IVec S1700000 32 :=
  concatenate S1700000 0
    [⟨S1600000, shapeCast S1600000 (extractStridedSlice S1x1600000 ![0, 0] x6 slices_S2x1600000_S1x1600000_0_0) shapeCasts_S1x1600000_S1600000⟩,
     ⟨S100000, iotaInDim S100000 32 0⟩] concatenates_S1600000_S100000_S1700000_d0

def dstWords (x6 : IVec S2x1600000 32) : IVec S1700000 32 :=
  concatenate S1700000 0
    [⟨S1600000, shapeCast S1600000 (extractStridedSlice S1x1600000 ![1, 0] x6 slices_S2x1600000_S1x1600000_1_0) shapeCasts_S1x1600000_S1600000⟩,
     ⟨S100000, iotaInDim S100000 32 0⟩] concatenates_S1600000_S100000_S1700000_d0

/-- The edge weights, a one appended per self loop. -/
def weights (x1 : FVec F S1600000 .f32) : FVec F S1700000 .f32 :=
  concatenate S1700000 0
    [⟨S1600000, x1⟩,
     ⟨S100000, broadcastInDim S100000 ![] bcast_S_S100000 (constant S_ .f32 0x3F800000#32)⟩] concatenates_S1600000_S100000_S1700000_d0

/-- An index vector as the [E, 1] column a scatter takes: the words as they are. -/
def rawIdx (v : IVec S1700000 32) : IVec S1700000x1 32 :=
  broadcastInDim S1700000x1 ![0] bcast_S1700000_S1700000x1_0 v

/-- An index vector as the [E, 1] column a gather takes: a negative word counted from the end. -/
def normIdx (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The weighted in-degree: the weights added up by target. -/
def degree (x1 : FVec F S1600000 .f32) (x6 : IVec S2x1600000 32) : FVec F S100000 .f32 :=
  Host.scatterAdd scatter_S100000_S1700000x1_S1700000_n_0_0_1
    (broadcastInDim S100000 ![] bcast_S_S100000 (constant S_ .f32 0x00000000#32)) (rawIdx (dstWords x6)) (weights x1)

/-- The per-node scale: the inverse square root of a positive degree, zero elsewhere. -/
def scale (x1 : FVec F S1600000 .f32) (x6 : IVec S2x1600000 32) : FVec F S100000 .f32 :=
  select (cmpf .ogt (degree x1 x6) (broadcastInDim S100000 ![] bcast_S_S100000 (constant S_ .f32 0x00000000#32)))
    (Host.rsqrt (degree x1 x6))
    (broadcastInDim S100000 ![] bcast_S_S100000 (id (constant S_ .f32 0x00000000#32)))

/-- The scale as a column. -/
def scaleCol (x1 : FVec F S1600000 .f32) (x6 : IVec S2x1600000 32) : FVec F S100000x1 .f32 :=
  shapeCast S100000x1 (scale x1 x6) shapeCasts_S100000_S100000x1

/-- One aggregation: the rows of `H` gathered by source, each times its edge's weight, added up by target. -/
def aggr (H : FVec F S100000x128 .f32) (sw dw : IVec S1700000 32) (wv : FVec F S1700000 .f32) : FVec F S100000x128 .f32 :=
  Host.scatterAdd scatter_S100000x128_S1700000x1_S1700000x128_1_0_0_1
    (broadcastInDim S100000x128 ![] bcast_S_S100000x128 (constant S_ .f32 0x00000000#32)) (rawIdx dw)
    (mulf (Host.gather gather_S100000x128_S1700000x1_S1700000x128_1_0_n_n_0_1_1128 H (normIdx sw))
      (broadcastInDim S1700000x128 ![0, 1] bcast_S1700000x1_S1700000x128_0_1
        (broadcastInDim S1700000x1 ![0] bcast_S1700000_S1700000x1_0 wv)))

/-- The mask's node numbers as the [M, 1] column a gather takes. -/
def maskIdx (x7 : IVec S5000 32) : IVec S5000x1 32 :=
  broadcastInDim S5000x1 ![0] bcast_S5000_S5000x1_0
    (select (cmpi .slt x7 (broadcastInDim S5000 ![] bcast_S_S5000 (constantI S_ 32 0#32)))
      (addi x7 (broadcastInDim S5000 ![] bcast_S_S5000 (constantI S_ 32 100000#32))) x7)

/-- The epilogue: the masked rows of the aggregate `A`, each times its node's scale, plus the bias. -/
def outRows (A : FVec F S100000x128 .f32) (dc : FVec F S100000x1 .f32) (x7 : IVec S5000 32) (b2 : FVec F S128 .f32) :
    FVec F S5000x128 .f32 :=
  addf
    (mulf
      (broadcastInDim S5000x128 ![0, 1] bcast_S5000x1_S5000x128_0_1
        (Host.gather gather_S100000x1_S5000x1_S5000x1_1_0_n_n_0_1_11 dc (maskIdx x7)))
      (Host.gather gather_S100000x128_S5000x1_S5000x128_1_0_n_n_0_1_1128 A (maskIdx x7)))
    (broadcastInDim S5000x128 ![0, 1] bcast_S1x128_S5000x128_0_1 (broadcastInDim S1x128 ![1] bcast_S128_S1x128_1 b2))

/-- The second result: the labels at the masked nodes. -/
def labels (x8 : IVec S100000 32) (x7 : IVec S5000 32) : IVec S5000 32 :=
  Host.gather gather_S100000_S5000x1_S5000_n_0_n_n_0_1_1 x8 (maskIdx x7)

end Cert.KernelIdeal.Stage

end
-- ==== Proof.KernelFold.lean ====
/-
  What each buffer holds at the end of the kernel program's run, read back through the program: a stretch of host
  operations applies its operations to what the buffers held before it; a region leaves its output array at what its
  blocks wrote and everything else as it found it. Walking back from the results: the first result is the
  epilogue `Stage.outRows` of the second aggregate, which aggregates the second region's output array; the second
  region's inputs are the first aggregate (of the first region's output array), the scale column, the bias row and
  the second weight matrix; the first region's inputs are the features, the first weight matrix and the scale column.
-/
import proofs.«152032_j36206574306115_2_alg».proof.Proof.Gen.KernelIdeal.Frame
import proofs.«152032_j36206574306115_2_alg».proof.Proof.KernelStages

set_option maxRecDepth 16384

noncomputable section

namespace Cert.KernelIdeal.Fold

open Cert.KernelIdeal Cert.KernelIdeal.Gen Cert.KernelIdeal.Stage
open Idealize.ShloMosaic Idealize.ShloMosaic.TcCoe Idealize.ShloMosaic.Tactic Idealize.ShloMosaic.StableHlo
open Idealize.SL.Sem

variable {F : FTy → Type} [FloatOps F]
variable (m : (ℓ : Loc nD τ sig) → Buf (Elt F) ℓ) (ρ : Dev nD → PrngReg) (c : Dev nD)

/-! ## Before the first region -/

theorem W3_v5 : W3 m ρ c (Proc.devRef .tc main_v5) = srcWords (m ((c : Thread nD τ).loc main_arg6)) := by
  dsimp only [W3, W2, W1, hostOps0, hostOps0_1, hostOps0_2]
  after_results_simp <;> rfl

theorem W3_v6 : W3 m ρ c (Proc.devRef .tc main_v6) = dstWords (m ((c : Thread nD τ).loc main_arg6)) := by
  dsimp only [W3, W2, W1, hostOps0, hostOps0_1, hostOps0_2]
  after_results_simp <;> rfl

theorem W3_v8 : W3 m ρ c (Proc.devRef .tc main_v8) = weights (F := F) (m ((c : Thread nD τ).loc main_arg1)) := by
  dsimp only [W3, W2, W1, hostOps0, hostOps0_1, hostOps0_2]
  after_results_simp <;> rfl

theorem W3_v16 : W3 m ρ c (Proc.devRef .tc main_v16)
    = scaleCol (F := F) (m ((c : Thread nD τ).loc main_arg1)) (m ((c : Thread nD τ).loc main_arg6)) := by
  dsimp only [W3, W2, W1, hostOps0, hostOps0_1, hostOps0_2]
  after_results_simp <;> rfl

theorem W3_arg0 : W3 m ρ c (Proc.devRef .tc main_arg0) = m ((c : Thread nD τ).loc main_arg0) := by
  dsimp only [W3, W2, W1, hostOps0, hostOps0_1, hostOps0_2]
  after_results_simp <;> rfl
theorem W3_arg2 : W3 m ρ c (Proc.devRef .tc main_arg2) = m ((c : Thread nD τ).loc main_arg2) := by
  dsimp only [W3, W2, W1, hostOps0, hostOps0_1, hostOps0_2]
  after_results_simp <;> rfl
theorem W3_arg3 : W3 m ρ c (Proc.devRef .tc main_arg3) = m ((c : Thread nD τ).loc main_arg3) := by
  dsimp only [W3, W2, W1, hostOps0, hostOps0_1, hostOps0_2]
  after_results_simp <;> rfl
theorem W3_arg4 : W3 m ρ c (Proc.devRef .tc main_arg4) = m ((c : Thread nD τ).loc main_arg4) := by
  dsimp only [W3, W2, W1, hostOps0, hostOps0_1, hostOps0_2]
  after_results_simp <;> rfl
theorem W3_arg5 : W3 m ρ c (Proc.devRef .tc main_arg5) = m ((c : Thread nD τ).loc main_arg5) := by
  dsimp only [W3, W2, W1, hostOps0, hostOps0_1, hostOps0_2]
  after_results_simp <;> rfl
theorem W3_arg7 : W3 m ρ c (Proc.devRef .tc main_arg7) = m ((c : Thread nD τ).loc main_arg7) := by
  dsimp only [W3, W2, W1, hostOps0, hostOps0_1, hostOps0_2]
  after_results_simp <;> rfl
theorem W3_arg8 : W3 m ρ c (Proc.devRef .tc main_arg8) = m ((c : Thread nD τ).loc main_arg8) := by
  dsimp only [W3, W2, W1, hostOps0, hostOps0_1, hostOps0_2]
  after_results_simp <;> rfl

/-! ## The first region leaves its output array at what its blocks wrote and every other buffer as it was -/

theorem W4_v17 : W4 m ρ c (Proc.devRef .tc main_v17) = (dat0 (V3 m ρ) c).arrAt 3 cfg0.N := W4_arr m ρ c 3
theorem W4_v16 : W4 m ρ c (Proc.devRef .tc main_v16) = W3 m ρ c (Proc.devRef .tc main_v16) :=
  (W4_arr m ρ c 2).trans (((dat0 (V3 m ρ) c).arrAt_in 2 rfl _).trans (A_eq0 (V3 m ρ) c 2))
theorem W4_v5 : W4 m ρ c (Proc.devRef .tc main_v5) = W3 m ρ c (Proc.devRef .tc main_v5) := W4_of_ne m ρ c main_v5 (by decide)
theorem W4_v6 : W4 m ρ c (Proc.devRef .tc main_v6) = W3 m ρ c (Proc.devRef .tc main_v6) := W4_of_ne m ρ c main_v6 (by decide)
theorem W4_v8 : W4 m ρ c (Proc.devRef .tc main_v8) = W3 m ρ c (Proc.devRef .tc main_v8) := W4_of_ne m ρ c main_v8 (by decide)
theorem W4_arg3 : W4 m ρ c (Proc.devRef .tc main_arg3) = W3 m ρ c (Proc.devRef .tc main_arg3) := W4_of_ne m ρ c main_arg3 (by decide)
theorem W4_arg4 : W4 m ρ c (Proc.devRef .tc main_arg4) = W3 m ρ c (Proc.devRef .tc main_arg4) := W4_of_ne m ρ c main_arg4 (by decide)
theorem W4_arg5 : W4 m ρ c (Proc.devRef .tc main_arg5) = W3 m ρ c (Proc.devRef .tc main_arg5) := W4_of_ne m ρ c main_arg5 (by decide)
theorem W4_arg7 : W4 m ρ c (Proc.devRef .tc main_arg7) = W3 m ρ c (Proc.devRef .tc main_arg7) := W4_of_ne m ρ c main_arg7 (by decide)
theorem W4_arg8 : W4 m ρ c (Proc.devRef .tc main_arg8) = W3 m ρ c (Proc.devRef .tc main_arg8) := W4_of_ne m ρ c main_arg8 (by decide)

/-! ## The stretch between the regions: the first aggregate and the bias as a row -/

theorem W5_v30 : W5 m ρ c (Proc.devRef .tc main_v30)
    = aggr (F := F) (W4 m ρ c (Proc.devRef .tc main_v17)) (W4 m ρ c (Proc.devRef .tc main_v5))
        (W4 m ρ c (Proc.devRef .tc main_v6)) (W4 m ρ c (Proc.devRef .tc main_v8)) := by
  dsimp only [W5, hostOps1]
  after_results_simp <;> rfl
theorem W5_v31 : W5 m ρ c (Proc.devRef .tc main_v31)
    = shapeCast S1x128 (W4 m ρ c (Proc.devRef .tc main_arg3) : FVec F S128 .f32) shapeCasts_S128_S1x128 := by
  dsimp only [W5, hostOps1]
  after_results_simp <;> rfl
theorem W5_v16 : W5 m ρ c (Proc.devRef .tc main_v16) = W4 m ρ c (Proc.devRef .tc main_v16) := by
  dsimp only [W5, hostOps1]
  after_results_simp <;> rfl
theorem W5_v5 : W5 m ρ c (Proc.devRef .tc main_v5) = W4 m ρ c (Proc.devRef .tc main_v5) := by
  dsimp only [W5, hostOps1]
  after_results_simp <;> rfl
theorem W5_v6 : W5 m ρ c (Proc.devRef .tc main_v6) = W4 m ρ c (Proc.devRef .tc main_v6) := by
  dsimp only [W5, hostOps1]
  after_results_simp <;> rfl
theorem W5_v8 : W5 m ρ c (Proc.devRef .tc main_v8) = W4 m ρ c (Proc.devRef .tc main_v8) := by
  dsimp only [W5, hostOps1]
  after_results_simp <;> rfl
theorem W5_arg4 : W5 m ρ c (Proc.devRef .tc main_arg4) = W4 m ρ c (Proc.devRef .tc main_arg4) := by
  dsimp only [W5, hostOps1]
  after_results_simp <;> rfl
theorem W5_arg5 : W5 m ρ c (Proc.devRef .tc main_arg5) = W4 m ρ c (Proc.devRef .tc main_arg5) := by
  dsimp only [W5, hostOps1]
  after_results_simp <;> rfl
theorem W5_arg7 : W5 m ρ c (Proc.devRef .tc main_arg7) = W4 m ρ c (Proc.devRef .tc main_arg7) := by
  dsimp only [W5, hostOps1]
  after_results_simp <;> rfl
theorem W5_arg8 : W5 m ρ c (Proc.devRef .tc main_arg8) = W4 m ρ c (Proc.devRef .tc main_arg8) := by
  dsimp only [W5, hostOps1]
  after_results_simp <;> rfl

/-! ## The second region -/

theorem W6_v32 : W6 m ρ c (Proc.devRef .tc main_v32) = (dat1 (V5 m ρ) c).arrAt 4 cfg1.N := W6_arr m ρ c 4
theorem W6_v16 : W6 m ρ c (Proc.devRef .tc main_v16) = W5 m ρ c (Proc.devRef .tc main_v16) :=
  (W6_arr m ρ c 1).trans (((dat1 (V5 m ρ) c).arrAt_in 1 rfl _).trans (A_eq1 (V5 m ρ) c 1))
theorem W6_v5 : W6 m ρ c (Proc.devRef .tc main_v5) = W5 m ρ c (Proc.devRef .tc main_v5) := W6_of_ne m ρ c main_v5 (by decide)
theorem W6_v6 : W6 m ρ c (Proc.devRef .tc main_v6) = W5 m ρ c (Proc.devRef .tc main_v6) := W6_of_ne m ρ c main_v6 (by decide)
theorem W6_v8 : W6 m ρ c (Proc.devRef .tc main_v8) = W5 m ρ c (Proc.devRef .tc main_v8) := W6_of_ne m ρ c main_v8 (by decide)
theorem W6_arg5 : W6 m ρ c (Proc.devRef .tc main_arg5) = W5 m ρ c (Proc.devRef .tc main_arg5) := W6_of_ne m ρ c main_arg5 (by decide)
theorem W6_arg7 : W6 m ρ c (Proc.devRef .tc main_arg7) = W5 m ρ c (Proc.devRef .tc main_arg7) := W6_of_ne m ρ c main_arg7 (by decide)
theorem W6_arg8 : W6 m ρ c (Proc.devRef .tc main_arg8) = W5 m ρ c (Proc.devRef .tc main_arg8) := W6_of_ne m ρ c main_arg8 (by decide)

/-! ## The last stretch: the second aggregate and the epilogue -/

theorem W7_v64 : W7 m ρ c (Proc.devRef .tc main_v64)
    = outRows (F := F)
        (aggr (F := F) (W6 m ρ c (Proc.devRef .tc main_v32)) (W6 m ρ c (Proc.devRef .tc main_v5))
          (W6 m ρ c (Proc.devRef .tc main_v6)) (W6 m ρ c (Proc.devRef .tc main_v8)))
        (W6 m ρ c (Proc.devRef .tc main_v16)) (W6 m ρ c (Proc.devRef .tc main_arg7)) (W6 m ρ c (Proc.devRef .tc main_arg5)) := by
  dsimp only [W7, hostOps2]
  after_results_simp <;> rfl
theorem W7_v71 : W7 m ρ c (Proc.devRef .tc main_v71)
    = labels (W6 m ρ c (Proc.devRef .tc main_arg8)) (W6 m ρ c (Proc.devRef .tc main_arg7)) := by
  dsimp only [W7, hostOps2]
  after_results_simp <;> rfl

end Cert.KernelIdeal.Fold

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.LibColumns.lean ====
/-
  Column forms of three layout operations, read at an index of literal coordinates.

  A sum over the lanes of an `a × b` array keeps one entry per row; kernels then give that column vector a unit second
  axis (`[a] → [a, 1]`) and spread it back over the lanes (`[a, 1] → [a, b]`). Read at an index:

  * `shapeCast_a_a1_apply`: the cast of `x : [a]` to `[a, 1]` at `(r, u)` is `x r`, whatever the unit coordinate `u`;
  * `broadcastTo_a1_ab_apply`: the broadcast of `v : [a, 1]` to `[a, b]` at `(r, c)` is `v (r, 0)`;
  * `shapeCast_a1_1a_apply`: the cast of a column `x : [a, 1]` to a row `[1, a]` at `(u, c)` is `x (c, 0)`;
  * `lift_rows`: over a row index `r`, the source index with lane `k` put back is `(r, k)`;
  * `multiReduction_add_rows`: at the extended reals the lane sum of `x : [a, b]` at row `r` is `∑ k, x (r, k)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Proof.Columns

open Idealize.ShloMosaic Idealize.ShloMosaic.ValueIdx

variable {α : Type}

/-- An `[a]` array cast to `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` cast to a row `[1, a]` reads, at `(u, c)`, the operand at `(c, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (c : Fin a) : shapeCast ⟨2, ![1, a]⟩ x h (ix2 u c) = x (ix2 c (0 : Fin 1)) :=
  shapeCast_apply x h _ _ (by
    have hu : u.val = 0 := by omega
    rw [Shape.rowMajor_val_two, Shape.rowMajor_val_two]
    show c.val * 1 + 0 = u.val * a + c.val
    rw [hu, Nat.zero_mul, Nat.zero_add, Nat.mul_one, Nat.add_zero])

/-- An `[a, 1]` array broadcast to `[a, b]` reads, at `(r, c)`, the operand's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the row index `r`, the source index whose lane coordinate is `k` is `(r, k)`. -/
theorem lift_rows {a b : ℕ} (h : (⟨2, ![a, b]⟩ : Shape).Reduces [(1 : Fin 2)] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lanes of an `a × b` array, at the extended reals and at row `r`, is `∑ k, x (r, k)`. The
    accumulator fact is taken in the form a printed program carries it. -/
theorem multiReduction_add_rows {a b : ℕ} {φ : FTy} (x : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (r : Fin a) :
    multiReduction .add [(1 : Fin 2)] ⟨1, ![a]⟩ x acc h hφ hacc (ix1 r) = ∑ k : Fin b, x (ix2 r k) := by
  refine (Ideal.multiReduction_add_single x acc h hφ hacc (ix1 r)).trans ?_
  exact Finset.sum_congr rfl fun k _ => congrArg x (lift_rows h r k)

end Cert.Proof.Columns

end
-- ==== Proof.RegionPayload.lean ====
/-
  The two kernel bodies read at an index, at the extended reals.

  Each body works on one block of 5000 rows. Rounding to bf16 is the identity at the extended reals and a product
  accumulated into the zero array is the exact sum, so at row `p` and column `q` of the block

  * the first body leaves `(∑ j, x (p, j) · w (j, q)) · s (p, 0)`: the row of `x` times the weight matrix, scaled by
    the row's own scale;
  * the second leaves `(∑ j, max (a (p, j) · s (p, 0) + b (0, j)) 0 · w (j, q)) · s (p, 0)`: the row of `a` scaled,
    shifted by the bias row, clipped below at zero, then multiplied by the weight matrix and scaled again.

  Every entry of the output row `p` reads only row `p` of the row-indexed operands. Also here: three small facts the
  two region modules share (the zero offsets, extensionality over literal coordinates, the row a block's row sits at).
-/
import proofs.«152032_j36206574306115_2_alg».proof.Proof.Gen.KernelIdeal.Skeleton
import proofs.«152032_j36206574306115_2_alg».proof.Proof.LibPlainDot
import proofs.«152032_j36206574306115_2_alg».proof.Proof.LibColumns
import Idealize.ShloMosaic.Lib.ValueIdx
import Idealize.ShloMosaic.Lib.ValueLayout

noncomputable section

open scoped BigOperators

namespace Cert.KernelIdeal.RegionArrays

open Cert.KernelIdeal Idealize.ShloMosaic Idealize.SL.Sem
open Idealize.ShloMosaic.ValueIdx

/-- The offsets of a whole-buffer access are zero on both axes. -/
theorem zero_offsets : (![0, 0] : Fin 2 → Nat) = fun _ => 0 := funext fun a => by fin_cases a <;> rfl

/-- Two functions of a two-axis index agree when they agree at every pair of coordinates. -/
theorem ext_ix2 {α : Type} {a b : Nat} {f g : (⟨2, ![a, b]⟩ : Shape).Idx → α}
    (h : ∀ (p : Fin a) (q : Fin b), f (ix2 p q) = g (ix2 p q)) : f = g :=
  funext fun j => by rw [eq_ix2 j]; exact h _ _

/-- Row `p` of the block of 5000 rows number `b` (of 20) is row `5000 b + p` of the 100000-row array. -/
def rowAt (b : Nat) (hb : b < 20) (p : Fin 5000) : Fin 100000 := ⟨b * 5000 + p.val, by omega⟩

theorem rowAt_val (b : Nat) (hb : b < 20) (p : Fin 5000) : (rowAt b hb p).val = b * 5000 + p.val := rfl

/-- The kernels' dimension numbers are those of the plain product of a 5000 × 128 by a 128 × 128 matrix. -/
theorem dot_is_plain : dot_S5000x128_S128x128_S5000x128_1_0_0_1_n_n = DotDims.plain 5000 128 128 := rfl

/-- The first body at `(p, q)`: row `p` of `x` times column `q` of `w`, scaled by the row's scale. -/
theorem body0_apply (x : Vec Ideal S5000x128 .f32) (w : Vec Ideal S128x128 .f32) (s : Vec Ideal S5000x1 .f32)
    (p : Fin 5000) (q : Fin 128) :
    Gen.k0_pay1 (F := Ideal) x w s (ix2 p q) = (∑ j : Fin 128, x (ix2 p j) * w (ix2 j q)) * s (ix2 p (0 : Fin 1)) := by
  unfold Gen.k0_pay1
  rw [mulf_apply]
  refine congrArg₂ (· * ·) ?_ ?_
  · -- the product into the zero accumulator is the exact sum; the roundings are identities
    rw [dot_is_plain]
    exact Cert.Proof.PlainDot.matmul_plain_zero none _ _ (ix2 p q)
  · -- the column of scales spread over the 128 lanes reads the row's entry
    rw [shapeCast_self]
    exact Cert.Proof.Columns.broadcastTo_a1_ab_apply s _ p q

/-- The second body at `(p, q)`: row `p` of `a` scaled, shifted by the bias row and clipped at zero, times column
    `q` of `w`, scaled again by the row's scale. -/
theorem body1_apply (s : Vec Ideal S5000x1 .f32) (a : Vec Ideal S5000x128 .f32) (b : Vec Ideal S1x128 .f32)
    (w : Vec Ideal S128x128 .f32) (p : Fin 5000) (q : Fin 128) :
    Gen.k1_pay1 (F := Ideal) s a b w (ix2 p q)
      = (∑ j : Fin 128, max (a (ix2 p j) * s (ix2 p (0 : Fin 1)) + b (ix2 (0 : Fin 1) j)) 0 * w (ix2 j q))
        * s (ix2 p (0 : Fin 1)) := by
  unfold Gen.k1_pay1
  rw [mulf_apply]
  refine congrArg₂ (· * ·) ?_ ?_
  · rw [dot_is_plain]
    refine (Cert.Proof.PlainDot.matmul_plain_zero none _ _ (ix2 p q)).trans ?_
    refine Finset.sum_congr rfl fun j _ => congrArg₂ (· * ·) ?_ rfl
    -- the left factor at (p, j): the zero word is the extended real 0, the casts to the same shape are identities
    show max (_ * _ + _) (Ideal.ofBits .f32 0x00000000#32) = _
    rw [Ideal.ofBits_zero_f32, shapeCast_self, shapeCast_self, shapeCast_self]
    refine congrArg₂ max (congrArg₂ (· + ·) (congrArg₂ (· * ·) rfl ?_) ?_) rfl
    · exact Cert.Proof.Columns.broadcastTo_a1_ab_apply s _ p j
    · exact broadcastTo_1b_ab_apply b _ p j
  · rw [shapeCast_self]
    exact Cert.Proof.Columns.broadcastTo_a1_ab_apply s _ p q

end Cert.KernelIdeal.RegionArrays

end
-- ==== Proof.RegionArrays0.lean ====
/-
  The array the first layer's region leaves, as one function of the arrays the region finds.

  The region runs 20 grid points; point `t` takes rows `5000 t … 5000 t + 4999` of the feature array `X` and of the
  column of scales `s`, the whole 128 × 128 weight matrix `W`, and writes the same rows of the output. By the body's
  value at an index (row `p` of the block reads only row `p` of its operands) the block that point `t` writes back is
  the restriction to those rows of

      layer0 X W s (r, q) = (∑ j, X (r, j) · W (j, q)) · s (r, 0),

  and the 20 blocks cover every row (row `r` lies in block `r / 5000`), so the output array ends equal to `layer0`.
-/
import proofs.«152032_j36206574306115_2_alg».proof.Proof.Gen.KernelIdeal.Frame
import proofs.«152032_j36206574306115_2_alg».proof.Proof.RegionPayload
import Idealize.ShloMosaic.Lib.Pipeline.Value

noncomputable section

open scoped BigOperators

namespace Cert.KernelIdeal.RegionArrays

open Cert.KernelIdeal Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The first layer, row by row: row `r` of `X` times the weight matrix, scaled by the row's scale. -/
def layer0 (X : S100000x128.Idx → EReal) (W : S128x128.Idx → EReal) (s : S100000x1.Idx → EReal) :
    S100000x128.Idx → EReal :=
  fun i => (∑ j : Fin 128, X (ix2 (i 0) j) * W (ix2 j (i 1))) * s (ix2 (i 0) (0 : Fin 1))

theorem layer0_apply (X : S100000x128.Idx → EReal) (W : S128x128.Idx → EReal) (s : S100000x1.Idx → EReal)
    (r : Fin 100000) (q : Fin 128) :
    layer0 X W s (ix2 r q) = (∑ j : Fin 128, X (ix2 r j) * W (ix2 j q)) * s (ix2 r (0 : Fin 1)) := rfl

/-- The block indices over the grid: at point `t` the row-blocked windows (features, scales, output) are at block
    `t` of the rows and block 0 of the lanes; the weight matrix is always at its one block. -/
theorem grid_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- A grid point's number is below 20. -/
theorem point_lt0 (t : Fin cfg0.N) : t.val < 20 := lt_of_lt_of_eq t.isLt Gen.N_0

/-- The features' block at point `t`, at `(p, j)`, is the feature array at row `5000 t + p`. -/
theorem features_block0 (c : Dev nD) (t : Fin cfg0.N) (p : Fin 5000) (j : Fin 128) :
    (Gen.iblk0 (F := Ideal) V c 0 t : Vec Ideal S5000x128 .f32) (ix2 p j)
      = (V c main_arg0 : S100000x128.Idx → EReal) (ix2 (rowAt t.val (point_lt0 t) p) j) := by
  obtain ⟨e0, e1, -⟩ := grid_index0 t
  unfold Gen.iblk0
  rw [View.read_apply]
  show V c main_arg0 _ = V c main_arg0 _
  refine congrArg _ ?_
  funext a
  apply Fin.ext
  match a with
  | ⟨0, _⟩ => show win0_0.index t (0 : Fin 2) * 5000 + 1 * p.val = t.val * 5000 + p.val; rw [e0]; omega
  | ⟨1, _⟩ => show win0_0.index t (1 : Fin 2) * 128 + 1 * j.val = j.val; rw [e1]; omega

/-- The weights' block at every point is the whole weight matrix. -/
theorem weights_block0 (c : Dev nD) (t : Fin cfg0.N) (j : Fin 128) (q : Fin 128) :
    (Gen.iblk0 (F := Ideal) V c 1 t : Vec Ideal S128x128 .f32) (ix2 j q)
      = (V c main_arg2 : S128x128.Idx → EReal) (ix2 j q) := by
  obtain ⟨-, -, e0, e1, -⟩ := grid_index0 t
  unfold Gen.iblk0
  rw [View.read_apply]
  show V c main_arg2 _ = V c main_arg2 _
  refine congrArg _ ?_
  funext a
  apply Fin.ext
  match a with
  | ⟨0, _⟩ => show win0_1.index t (0 : Fin 2) * 128 + 1 * j.val = j.val; rw [e0]; omega
  | ⟨1, _⟩ => show win0_1.index t (1 : Fin 2) * 128 + 1 * q.val = q.val; rw [e1]; omega

/-- The scales' block at point `t`, at `(p, u)`, is the column of scales at row `5000 t + p`. -/
theorem scales_block0 (c : Dev nD) (t : Fin cfg0.N) (p : Fin 5000) (u : Fin 1) :
    (Gen.iblk0 (F := Ideal) V c 2 t : Vec Ideal S5000x1 .f32) (ix2 p u)
      = (V c main_v16 : S100000x1.Idx → EReal) (ix2 (rowAt t.val (point_lt0 t) p) u) := by
  obtain ⟨-, -, -, -, e0, e1, -⟩ := grid_index0 t
  unfold Gen.iblk0
  rw [View.read_apply]
  show V c main_v16 _ = V c main_v16 _
  refine congrArg _ ?_
  funext a
  apply Fin.ext
  match a with
  | ⟨0, _⟩ => show win0_2.index t (0 : Fin 2) * 5000 + 1 * p.val = t.val * 5000 + p.val; rw [e0]; omega
  | ⟨1, _⟩ => show win0_2.index t (1 : Fin 2) * 1 + 1 * u.val = u.val; rw [e1]; omega

/-- The output's block at point `t`: its entry `(p, q)` sits at `(5000 t + p, q)` of the output array. -/
theorem output_place0 (t : Fin cfg0.N) (p : Fin 5000) (q : Fin 128) :
    (((cfg0.win 3).blk t).view.emb (ix2 p q) : S100000x128.Idx) = ix2 (rowAt t.val (point_lt0 t) p) q := by
  obtain ⟨-, -, -, -, -, -, e0, e1⟩ := grid_index0 t
  funext a
  apply Fin.ext
  match a with
  | ⟨0, _⟩ => show win0_3.index t (0 : Fin 2) * 5000 + 1 * p.val = t.val * 5000 + p.val; rw [e0]; omega
  | ⟨1, _⟩ => show win0_3.index t (1 : Fin 2) * 128 + 1 * q.val = q.val; rw [e1]; omega

/-- What point `t` writes back is block `t` of `layer0` of the arrays as the region finds them. -/
theorem written0 (c : Dev nD) (t : Fin cfg0.N) :
    (Gen.dat0 (F := Ideal) V c).flushed 3 t
      = ((cfg0.win 3).blk t).view.read (Elt Ideal) (layer0 (V c main_arg0) (V c main_arg2) (V c main_v16)) := by
  show (cfg0.win 3).cut (grid0.coords t) ((Gen.dat0 V c).after 3 t) = _
  rw [Gen.after0_3]
  unfold Gen.out0_3
  rw [View.canon_unit_zero zero_offsets]
  simp only [View.ld_unit_zero (S := S5000x128) zero_offsets, View.ld_unit_zero (S := S128x128) zero_offsets,
    View.ld_unit_zero (S := S5000x1) zero_offsets]
  refine ext_ix2 (a := 5000) (b := 128) fun p q => ?_
  show Gen.k0_pay1 (F := Ideal) _ _ _ (ix2 p q)
    = layer0 (V c main_arg0) (V c main_arg2) (V c main_v16) (((cfg0.win 3).blk t).view.emb (ix2 p q))
  refine (body0_apply _ _ _ p q).trans ?_
  refine Eq.trans ?_ (congrArg (layer0 (V c main_arg0) (V c main_arg2) (V c main_v16)) (output_place0 t p q).symm)
  refine Eq.trans ?_ (layer0_apply (V c main_arg0) (V c main_arg2) (V c main_v16) (rowAt t.val (point_lt0 t) p) q).symm
  exact congrArg₂ (· * ·)
    (Finset.sum_congr rfl fun j _ => congrArg₂ (· * ·) (features_block0 V c t p j) (weights_block0 V c t j q))
    (scales_block0 V c t p 0)

/-- An index of the output array is in point `t`'s block iff each coordinate is in the block's range on its axis. -/
theorem mem_block0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v17).slice (win0_3.rect t)).set ↔ _
  rw [View.set_slice_whole, Rect.mem_set_unit]
  exact Iff.rfl

/-- Every index of the output array is in some point's block: row `r` is in block `r / 5000`. -/
theorem covered0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := Gen.N_0
  let t : Fin cfg0.N := ⟨(i 0).val / 5000, by rw [hN]; omega⟩
  obtain ⟨-, -, -, -, -, -, e0, e1⟩ := grid_index0 t
  have ht : t.val = (i 0).val / 5000 := rfl
  refine ⟨t, Gen.flush0_3 t, ?_⟩
  rw [mem_block0]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

/-- The output array after the region is `layer0` of the arrays the region finds. -/
theorem array0 (c : Dev nD) :
    (Gen.dat0 (F := Ideal) V c).arrAt 3 cfg0.N = layer0 (V c main_arg0) (V c main_arg2) (V c main_v16) :=
  (Gen.dat0 (F := Ideal) V c).arrAt_eq_of_cover 3 _ (fun t _ => written0 V c t) covered0

/-- Entry `(r, q)` of the output array after the region: row `r` of the features times column `q` of the weights,
    scaled by row `r`'s scale — the arrays named through typed variables. -/
theorem final0 (c : Dev nD) (X : S100000x128.Idx → EReal) (W : S128x128.Idx → EReal) (s : S100000x1.Idx → EReal)
    (hX : V c main_arg0 = X) (hW : V c main_arg2 = W) (hs : V c main_v16 = s) (r : Fin 100000) (q : Fin 128) :
    ((Gen.dat0 (F := Ideal) V c).arrAt 3 cfg0.N : S100000x128.Idx → EReal) (ix2 r q)
      = (∑ j : Fin 128, X (ix2 r j) * W (ix2 j q)) * s (ix2 r (0 : Fin 1)) := by
  subst hX hW hs
  exact congrFun (array0 V c) (ix2 r q)

end Cert.KernelIdeal.RegionArrays

end
-- ==== Proof.RegionArrays1.lean ====
/-
  The array the second layer's region leaves, as one function of the arrays the region finds.

  The region runs 20 grid points; point `t` takes rows `5000 t … 5000 t + 4999` of the aggregated array `A` and of
  the column of scales `s`, the whole bias row `b` and the whole 128 × 128 weight matrix `W`, and writes the same rows
  of the output. By the body's value at an index the block that point `t` writes back is the restriction to those
  rows of

      layer1 A s b W (r, q) = (∑ j, max (A (r, j) · s (r, 0) + b (0, j)) 0 · W (j, q)) · s (r, 0),

  and the 20 blocks cover every row (row `r` lies in block `r / 5000`), so the output array ends equal to `layer1`.
-/
import proofs.«152032_j36206574306115_2_alg».proof.Proof.Gen.KernelIdeal.Frame
import proofs.«152032_j36206574306115_2_alg».proof.Proof.RegionPayload
import Idealize.ShloMosaic.Lib.Pipeline.Value

noncomputable section

open scoped BigOperators

namespace Cert.KernelIdeal.RegionArrays

open Cert.KernelIdeal Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The second layer, row by row: row `r` of `A` scaled by the row's scale, shifted by the bias row, clipped below at
    zero, times the weight matrix, scaled again by the row's scale. -/
def layer1 (A : S100000x128.Idx → EReal) (s : S100000x1.Idx → EReal) (b : S1x128.Idx → EReal)
    (W : S128x128.Idx → EReal) : S100000x128.Idx → EReal :=
  fun i => (∑ j : Fin 128, max (A (ix2 (i 0) j) * s (ix2 (i 0) (0 : Fin 1)) + b (ix2 (0 : Fin 1) j)) 0 * W (ix2 j (i 1)))
    * s (ix2 (i 0) (0 : Fin 1))

theorem layer1_apply (A : S100000x128.Idx → EReal) (s : S100000x1.Idx → EReal) (b : S1x128.Idx → EReal)
    (W : S128x128.Idx → EReal) (r : Fin 100000) (q : Fin 128) :
    layer1 A s b W (ix2 r q)
      = (∑ j : Fin 128, max (A (ix2 r j) * s (ix2 r (0 : Fin 1)) + b (ix2 (0 : Fin 1) j)) 0 * W (ix2 j q))
        * s (ix2 r (0 : Fin 1)) := rfl

/-- The block indices over the grid: at point `t` the row-blocked windows (aggregated array, scales, output) are at
    block `t` of the rows and block 0 of the lanes; the bias row and the weight matrix are always at their one block. -/
theorem grid_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- A grid point's number is below 20. -/
theorem point_lt1 (t : Fin cfg1.N) : t.val < 20 := lt_of_lt_of_eq t.isLt Gen.N_1

/-- The aggregated array's block at point `t`, at `(p, j)`, is the array at row `5000 t + p`. -/
theorem aggregated_block1 (c : Dev nD) (t : Fin cfg1.N) (p : Fin 5000) (j : Fin 128) :
    (Gen.iblk1 (F := Ideal) V c 0 t : Vec Ideal S5000x128 .f32) (ix2 p j)
      = (V c main_v30 : S100000x128.Idx → EReal) (ix2 (rowAt t.val (point_lt1 t) p) j) := by
  obtain ⟨e0, e1, -⟩ := grid_index1 t
  unfold Gen.iblk1
  rw [View.read_apply]
  show V c main_v30 _ = V c main_v30 _
  refine congrArg _ ?_
  funext a
  apply Fin.ext
  match a with
  | ⟨0, _⟩ => show win1_0.index t (0 : Fin 2) * 5000 + 1 * p.val = t.val * 5000 + p.val; rw [e0]; omega
  | ⟨1, _⟩ => show win1_0.index t (1 : Fin 2) * 128 + 1 * j.val = j.val; rw [e1]; omega

/-- The scales' block at point `t`, at `(p, u)`, is the column of scales at row `5000 t + p`. -/
theorem scales_block1 (c : Dev nD) (t : Fin cfg1.N) (p : Fin 5000) (u : Fin 1) :
    (Gen.iblk1 (F := Ideal) V c 1 t : Vec Ideal S5000x1 .f32) (ix2 p u)
      = (V c main_v16 : S100000x1.Idx → EReal) (ix2 (rowAt t.val (point_lt1 t) p) u) := by
  obtain ⟨-, -, e0, e1, -⟩ := grid_index1 t
  unfold Gen.iblk1
  rw [View.read_apply]
  show V c main_v16 _ = V c main_v16 _
  refine congrArg _ ?_
  funext a
  apply Fin.ext
  match a with
  | ⟨0, _⟩ => show win1_1.index t (0 : Fin 2) * 5000 + 1 * p.val = t.val * 5000 + p.val; rw [e0]; omega
  | ⟨1, _⟩ => show win1_1.index t (1 : Fin 2) * 1 + 1 * u.val = u.val; rw [e1]; omega

/-- The bias' block at every point is the whole bias row. -/
theorem bias_block1 (c : Dev nD) (t : Fin cfg1.N) (u : Fin 1) (j : Fin 128) :
    (Gen.iblk1 (F := Ideal) V c 2 t : Vec Ideal S1x128 .f32) (ix2 u j)
      = (V c main_v31 : S1x128.Idx → EReal) (ix2 u j) := by
  obtain ⟨-, -, -, -, e0, e1, -⟩ := grid_index1 t
  unfold Gen.iblk1
  rw [View.read_apply]
  show V c main_v31 _ = V c main_v31 _
  refine congrArg _ ?_
  funext a
  apply Fin.ext
  match a with
  | ⟨0, _⟩ => show win1_2.index t (0 : Fin 2) * 1 + 1 * u.val = u.val; rw [e0]; omega
  | ⟨1, _⟩ => show win1_2.index t (1 : Fin 2) * 128 + 1 * j.val = j.val; rw [e1]; omega

/-- The weights' block at every point is the whole weight matrix. -/
theorem weights_block1 (c : Dev nD) (t : Fin cfg1.N) (j : Fin 128) (q : Fin 128) :
    (Gen.iblk1 (F := Ideal) V c 3 t : Vec Ideal S128x128 .f32) (ix2 j q)
      = (V c main_arg4 : S128x128.Idx → EReal) (ix2 j q) := by
  obtain ⟨-, -, -, -, -, -, e0, e1, -⟩ := grid_index1 t
  unfold Gen.iblk1
  rw [View.read_apply]
  show V c main_arg4 _ = V c main_arg4 _
  refine congrArg _ ?_
  funext a
  apply Fin.ext
  match a with
  | ⟨0, _⟩ => show win1_3.index t (0 : Fin 2) * 128 + 1 * j.val = j.val; rw [e0]; omega
  | ⟨1, _⟩ => show win1_3.index t (1 : Fin 2) * 128 + 1 * q.val = q.val; rw [e1]; omega

/-- The output's block at point `t`: its entry `(p, q)` sits at `(5000 t + p, q)` of the output array. -/
theorem output_place1 (t : Fin cfg1.N) (p : Fin 5000) (q : Fin 128) :
    (((cfg1.win 4).blk t).view.emb (ix2 p q) : S100000x128.Idx) = ix2 (rowAt t.val (point_lt1 t) p) q := by
  obtain ⟨-, -, -, -, -, -, -, -, e0, e1⟩ := grid_index1 t
  funext a
  apply Fin.ext
  match a with
  | ⟨0, _⟩ => show win1_4.index t (0 : Fin 2) * 5000 + 1 * p.val = t.val * 5000 + p.val; rw [e0]; omega
  | ⟨1, _⟩ => show win1_4.index t (1 : Fin 2) * 128 + 1 * q.val = q.val; rw [e1]; omega

/-- What point `t` writes back is block `t` of `layer1` of the arrays as the region finds them. -/
theorem written1 (c : Dev nD) (t : Fin cfg1.N) :
    (Gen.dat1 (F := Ideal) V c).flushed 4 t
      = ((cfg1.win 4).blk t).view.read (Elt Ideal)
          (layer1 (V c main_v30) (V c main_v16) (V c main_v31) (V c main_arg4)) := by
  show (cfg1.win 4).cut (grid1.coords t) ((Gen.dat1 V c).after 4 t) = _
  rw [Gen.after1_4]
  unfold Gen.out1_4
  rw [View.canon_unit_zero zero_offsets]
  simp only [View.ld_unit_zero (S := S5000x128) zero_offsets, View.ld_unit_zero (S := S128x128) zero_offsets,
    View.ld_unit_zero (S := S5000x1) zero_offsets, View.ld_unit_zero (S := S1x128) zero_offsets]
  refine ext_ix2 (a := 5000) (b := 128) fun p q => ?_
  show Gen.k1_pay1 (F := Ideal) _ _ _ _ (ix2 p q)
    = layer1 (V c main_v30) (V c main_v16) (V c main_v31) (V c main_arg4) (((cfg1.win 4).blk t).view.emb (ix2 p q))
  refine (body1_apply _ _ _ _ p q).trans ?_
  refine Eq.trans ?_ (congrArg (layer1 (V c main_v30) (V c main_v16) (V c main_v31) (V c main_arg4))
    (output_place1 t p q).symm)
  refine Eq.trans ?_ (layer1_apply (V c main_v30) (V c main_v16) (V c main_v31) (V c main_arg4)
    (rowAt t.val (point_lt1 t) p) q).symm
  refine congrArg₂ (· * ·) (Finset.sum_congr rfl fun j _ => congrArg₂ (· * ·) ?_ (weights_block1 V c t j q))
    (scales_block1 V c t p 0)
  exact congrArg₂ max
    (congrArg₂ (· + ·) (congrArg₂ (· * ·) (aggregated_block1 V c t p j) (scales_block1 V c t p 0)) (bias_block1 V c t 0 j))
    rfl

/-- An index of the output array is in point `t`'s block iff each coordinate is in the block's range on its axis. -/
theorem mem_block1 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v32).slice (win1_4.rect t)).set ↔ _
  rw [View.set_slice_whole, Rect.mem_set_unit]
  exact Iff.rfl

/-- Every index of the output array is in some point's block: row `r` is in block `r / 5000`. -/
theorem covered1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := Gen.N_1
  let t : Fin cfg1.N := ⟨(i 0).val / 5000, by rw [hN]; omega⟩
  obtain ⟨-, -, -, -, -, -, -, -, e0, e1⟩ := grid_index1 t
  have ht : t.val = (i 0).val / 5000 := rfl
  refine ⟨t, Gen.flush1_4 t, ?_⟩
  rw [mem_block1]
  intro a
  match a with
  | ⟨0, _⟩ =>
    show win1_4.index t (0 : Fin 2) * 5000 ≤ (i 0).val ∧ (i 0).val < win1_4.index t (0 : Fin 2) * 5000 + 5000
    rw [e0, ht]; omega
  | ⟨1, _⟩ =>
    show win1_4.index t (1 : Fin 2) * 128 ≤ (i 1).val ∧ (i 1).val < win1_4.index t (1 : Fin 2) * 128 + 128
    rw [e1]; omega

/-- The output array after the region is `layer1` of the arrays the region finds. -/
theorem array1 (c : Dev nD) :
    (Gen.dat1 (F := Ideal) V c).arrAt 4 cfg1.N
      = layer1 (V c main_v30) (V c main_v16) (V c main_v31) (V c main_arg4) :=
  (Gen.dat1 (F := Ideal) V c).arrAt_eq_of_cover 4 _ (fun t _ => written1 V c t) covered1

/-- Entry `(r, q)` of the output array after the region: row `r` of the aggregated array scaled, shifted by the bias
    and clipped at zero, times column `q` of the weights, scaled again — the arrays named through typed variables. -/
theorem final1 (c : Dev nD) (A : S100000x128.Idx → EReal) (s : S100000x1.Idx → EReal) (b : S1x128.Idx → EReal)
    (W2 : S128x128.Idx → EReal) (hA : V c main_v30 = A) (hs : V c main_v16 = s) (hb : V c main_v31 = b)
    (hW : V c main_arg4 = W2) (r : Fin 100000) (q : Fin 128) :
    ((Gen.dat1 (F := Ideal) V c).arrAt 4 cfg1.N : S100000x128.Idx → EReal) (ix2 r q)
      = (∑ j : Fin 128, max (A (ix2 r j) * s (ix2 r (0 : Fin 1)) + b (ix2 (0 : Fin 1) j)) 0 * W2 (ix2 j q))
        * s (ix2 r (0 : Fin 1)) := by
  subst hA hs hb hW
  exact congrFun (array1 V c) (ix2 r q)

end Cert.KernelIdeal.RegionArrays

end
-- ==== Proof.RegionArrays.lean ====
/-
  The two regions' output arrays, each as one function of the arrays its region finds: the first layer's
  (`array0`, `final0`) and the second layer's (`array1`, `final1`).
-/
import proofs.«152032_j36206574306115_2_alg».proof.Proof.RegionArrays0
import proofs.«152032_j36206574306115_2_alg».proof.Proof.RegionArrays1
-- ==== Proof.LibScatterAdd.lean ====
/-
  The host's accumulating float scatter, for row scatters, read at an index on the extended reals.

  A ROW SCATTER has scatter indices of shape [N, 1] holding one row number each; that number names the
  operand's axis 0, which is inserted; the update's remaining axes (none, or one axis of C columns) go to the
  operand's remaining axes. Update row j then lands on operand row (I j), the index read signed, column for
  column, and is dropped when that row is outside the operand. On the extended reals the scatter-add is the
  operand plus the exact sum of the updates landing on each element, so

    result (r)    = Z (r)    + the sum over the update rows j with I j = r of U (j)        (no columns)
    result (r, c) = Z (r, c) + the sum over the update rows j with I j = r of U (j, c)     (C columns)

  for any sizes R (operand rows), N (update rows), C (columns) and any index width. The lemmas are stated for
  the dimension numbers as a record built from any proof of their well-formedness (`dims1 wf`, `dims2 wf`); a
  program's own record of the same four lists is that record, so they apply to it by unification.
-/
import Idealize.ShloMosaic.Lib.ValueIdx
import Idealize.ShloMosaic.Lib.IdealHost
import Idealize.ShloMosaic.Lib.Pipeline.Value
import Idealize.ShloMosaic.PureOps.Contract

noncomputable section

open scoped BigOperators

namespace Cert.ScatterRows

open Idealize.ShloMosaic Idealize.ShloMosaic.ValueIdx

theorem coord_val_congr {s : Shape} (j : s.Idx) {a b : Fin s.rank} (h : a = b) : (j a).val = (j b).val := by
  subst h; rfl

section rank1
variable {R N w : Nat}

/-- The 1-D scatter's dimension numbers, over any sizes. -/
abbrev dims1 (wf : ScatterDims.WF ⟨1, ![R]⟩ ⟨2, ![N, 1]⟩ ⟨1, ![N]⟩ [] [0] [0] 1) :
    ScatterDims ⟨1, ![R]⟩ ⟨2, ![N, 1]⟩ ⟨1, ![N]⟩ := ⟨[], [0], [0], 1, wf⟩

theorem start1 (wf) (a : Fin N) (I : IVec ⟨2, ![N, 1]⟩ w) :
    (dims1 (R := R) wf).start (ix1 a) I 0 = (I (ix2 a 0)).toInt := by
  unfold ScatterDims.start
  rw [dif_pos (List.mem_singleton.2 rfl)]
  congr 2
  funext b
  match b with
  | ⟨0, _⟩ =>
    apply Fin.ext
    simp only [ScatterDims.siIdx, ScatterDims.siCoord]
    rw [dif_neg (by decide)]
    simp only [Fin.coe_cast]
    exact coord_val_congr (ix1 a) rfl
  | ⟨1, _⟩ =>
    apply Fin.ext
    simp [ScatterDims.siIdx]

theorem window1 (wf) (j : (⟨1, ![N]⟩ : Shape).Idx) :
    (dims1 (R := R) wf).window j 0 = 0 := by
  unfold ScatterDims.window
  rw [dif_neg (by simp [Shape.kept])]

theorem resultIdx1 (wf) (a : Fin N) (I : IVec ⟨2, ![N, 1]⟩ w) (r : Fin R) :
    (dims1 (R := R) wf).resultIdx? (ix1 a) I = some (ix1 r) ↔ (I (ix2 a 0)).toInt = (r.val : ℤ) := by
  unfold ScatterDims.resultIdx?
  constructor
  · intro h
    split at h
    · rename_i hh
      have h0 := congrFun (Option.some.inj h) 0
      have h1 := congrArg Fin.val h0
      have h2 := hh 0
      rw [start1, window1] at h2
      change ((dims1 (R := R) wf).start (ix1 a) I 0 + ((dims1 (R := R) wf).window (ix1 a) 0 : ℤ)).toNat = r.val at h1
      rw [start1, window1] at h1
      omega
    · exact absurd h (by simp)
  · intro h
    have hh : ∀ b, 0 ≤ (dims1 (R := R) wf).start (ix1 a) I b + ((dims1 (R := R) wf).window (ix1 a) b : ℤ)
        ∧ (dims1 (R := R) wf).start (ix1 a) I b + ((dims1 (R := R) wf).window (ix1 a) b : ℤ)
          < ((⟨1, ![R]⟩ : Shape).size b : ℤ) := by
      intro b
      match b with
      | ⟨0, _⟩ =>
        have := r.isLt
        change _ ∧ (dims1 (R := R) wf).start (ix1 a) I 0 + ((dims1 (R := R) wf).window (ix1 a) 0 : ℤ) < (R : ℤ)
        change 0 ≤ (dims1 (R := R) wf).start (ix1 a) I 0 + ((dims1 (R := R) wf).window (ix1 a) 0 : ℤ) ∧ _
        rw [start1, window1, h]
        omega
    rw [dif_pos hh]
    congr 1
    funext b
    match b with
    | ⟨0, _⟩ =>
      apply Fin.ext
      change ((dims1 (R := R) wf).start (ix1 a) I 0 + ((dims1 (R := R) wf).window (ix1 a) 0 : ℤ)).toNat = r.val
      rw [start1, window1, h]
      omega

end rank1

section rank1sum
variable {R N w : Nat}

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem scatterAdd1_apply (wf) (Z : (⟨1, ![R]⟩ : Shape).Idx → EReal) (I : IVec ⟨2, ![N, 1]⟩ w)
    (U : (⟨1, ![N]⟩ : Shape).Idx → EReal) (r : Fin R) :
    Ideal.hostScatterAdd (dims1 (R := R) wf) Z I U (ix1 r)
      = Z (ix1 r) + ∑ a : Fin N, if (I (ix2 a 0)).toInt = (r.val : ℤ) then U (ix1 a) else 0 := by
  unfold Ideal.hostScatterAdd
  rw [Finset.sum_filter, sum_idx1]
  congr 1
  apply Finset.sum_congr rfl
  intro a _
  exact if_congr (resultIdx1 wf a I r) rfl rfl

end rank1sum

section rank2
variable {R N C w : Nat}

/-- The row scatter's dimension numbers, over any sizes: the update's rows go to the operand's rows
    the indices name, its columns to the same columns. -/
abbrev dims2 (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ := ⟨[1], [0], [0], 1, wf⟩

theorem start2_0 (wf) (a : Fin N) (c : Fin C) (I : IVec ⟨2, ![N, 1]⟩ w) :
    (dims2 (R := R) wf).start (ix2 a c) I 0 = (I (ix2 a 0)).toInt := by
  unfold ScatterDims.start
  rw [dif_pos (List.mem_singleton.2 rfl)]
  congr 2
  funext b
  match b with
  | ⟨0, _⟩ =>
    apply Fin.ext
    simp only [ScatterDims.siIdx, ScatterDims.siCoord]
    rw [dif_neg (by decide)]
    simp only [Fin.coe_cast]
    exact coord_val_congr (ix2 a c) rfl
  | ⟨1, _⟩ =>
    apply Fin.ext
    simp [ScatterDims.siIdx]

theorem start2_1 (wf) (j : (⟨2, ![N, C]⟩ : Shape).Idx) (I : IVec ⟨2, ![N, 1]⟩ w) :
    (dims2 (R := R) wf).start j I 1 = 0 := by
  unfold ScatterDims.start
  rw [dif_neg (by simp)]

theorem window2_0 (wf) (j : (⟨2, ![N, C]⟩ : Shape).Idx) :
    (dims2 (R := R) wf).window j 0 = 0 := by
  unfold ScatterDims.window
  rw [dif_neg (by simp [Shape.kept])]

theorem window2_1 (wf) (a : Fin N) (c : Fin C) :
    (dims2 (R := R) wf).window (ix2 a c) 1 = c.val := by
  unfold ScatterDims.window
  rw [dif_pos (by simp [Shape.kept])]
  exact coord_val_congr (ix2 a c) rfl

end rank2

section rank2sum
variable {R N C w : Nat}

theorem resultIdx2 (wf) (a : Fin N) (c : Fin C) (I : IVec ⟨2, ![N, 1]⟩ w) (r : Fin R) (c' : Fin C) :
    (dims2 (R := R) wf).resultIdx? (ix2 a c) I = some (ix2 r c')
      ↔ (I (ix2 a 0)).toInt = (r.val : ℤ) ∧ c = c' := by
  unfold ScatterDims.resultIdx?
  constructor
  · intro h
    split at h
    · rename_i hh
      have e := Option.some.inj h
      have h0 := congrArg Fin.val (congrFun e 0)
      have h1 := congrArg Fin.val (congrFun e 1)
      have g0 := hh 0
      rw [start2_0, window2_0] at g0
      change ((dims2 (R := R) wf).start (ix2 a c) I 0 + ((dims2 (R := R) wf).window (ix2 a c) 0 : ℤ)).toNat = r.val at h0
      change ((dims2 (R := R) wf).start (ix2 a c) I 1 + ((dims2 (R := R) wf).window (ix2 a c) 1 : ℤ)).toNat = c'.val at h1
      rw [start2_0, window2_0] at h0
      rw [start2_1, window2_1] at h1
      refine ⟨by omega, Fin.ext (by omega)⟩
    · exact absurd h (by simp)
  · rintro ⟨h, rfl⟩
    have hh : ∀ b, 0 ≤ (dims2 (R := R) wf).start (ix2 a c) I b + ((dims2 (R := R) wf).window (ix2 a c) b : ℤ)
        ∧ (dims2 (R := R) wf).start (ix2 a c) I b + ((dims2 (R := R) wf).window (ix2 a c) b : ℤ)
          < ((⟨2, ![R, C]⟩ : Shape).size b : ℤ) := by
      intro b
      match b with
      | ⟨0, _⟩ =>
        have := r.isLt
        change _ ∧ (dims2 (R := R) wf).start (ix2 a c) I 0 + ((dims2 (R := R) wf).window (ix2 a c) 0 : ℤ) < (R : ℤ)
        change 0 ≤ (dims2 (R := R) wf).start (ix2 a c) I 0 + ((dims2 (R := R) wf).window (ix2 a c) 0 : ℤ) ∧ _
        rw [start2_0, window2_0, h]
        omega
      | ⟨1, _⟩ =>
        have := c.isLt
        change _ ∧ (dims2 (R := R) wf).start (ix2 a c) I 1 + ((dims2 (R := R) wf).window (ix2 a c) 1 : ℤ) < (C : ℤ)
        change 0 ≤ (dims2 (R := R) wf).start (ix2 a c) I 1 + ((dims2 (R := R) wf).window (ix2 a c) 1 : ℤ) ∧ _
        rw [start2_1, window2_1]
        omega
    rw [dif_pos hh]
    congr 1
    funext b
    match b with
    | ⟨0, _⟩ =>
      apply Fin.ext
      change ((dims2 (R := R) wf).start (ix2 a c) I 0 + ((dims2 (R := R) wf).window (ix2 a c) 0 : ℤ)).toNat = r.val
      rw [start2_0, window2_0, h]
      omega
    | ⟨1, _⟩ =>
      apply Fin.ext
      change ((dims2 (R := R) wf).start (ix2 a c) I 1 + ((dims2 (R := R) wf).window (ix2 a c) 1 : ℤ)).toNat = c.val
      rw [start2_1, window2_1]
      omega

/-- Of a row of terms, the ones at one column under a condition that does not depend on the column. -/
theorem sum_and_eq (p : Prop) [Decidable p] (c : Fin C) (f : Fin C → EReal) :
    ∑ c' : Fin C, (if p ∧ c' = c then f c' else 0) = if p then f c else 0 := by
  by_cases hp : p
  · simp [hp]
  · simp [hp]

theorem scatterAdd2_apply (wf) (Z : (⟨2, ![R, C]⟩ : Shape).Idx → EReal) (I : IVec ⟨2, ![N, 1]⟩ w)
    (U : (⟨2, ![N, C]⟩ : Shape).Idx → EReal) (r : Fin R) (c : Fin C) :
    Ideal.hostScatterAdd (dims2 (R := R) wf) Z I U (ix2 r c)
      = Z (ix2 r c) + ∑ a : Fin N, if (I (ix2 a 0)).toInt = (r.val : ℤ) then U (ix2 a c) else 0 := by
  unfold Ideal.hostScatterAdd
  rw [Finset.sum_filter, sum_idx2]
  congr 1
  apply Finset.sum_congr rfl
  intro a _
  rw [← sum_and_eq ((I (ix2 a 0)).toInt = (r.val : ℤ)) c (fun c' => U (ix2 a c'))]
  apply Finset.sum_congr rfl
  intro c' _
  exact if_congr (resultIdx2 wf a c' I r c) rfl rfl

end rank2sum

end Cert.ScatterRows

end
-- ==== Proof.LibGatherRows.lean ====
/-
  The host's gather, for row gathers, read at an index.

  A ROW GATHER has start indices of shape [E, 1] holding one row number each; that number names the operand's
  axis 0, which is collapsed; the operand's remaining axes (none, or one axis of C columns) are taken whole. Result
  row a is then the operand's row (rowOf G a): the start index G (a, 0) read signed and clamped into [0, N - 1], as
  the gather clamps every start index so that the slice fits. So

    result (a)    = operand (rowOf G a)         (no columns)
    result (a, c) = operand (rowOf G a, c)      (C columns)

  for any sizes N (operand rows, positive), E (result rows), C (columns) and any index width. The lemmas are stated
  for the dimension numbers as a record built from any proof of their well-formedness (`dims1 wf`, `dims2 wf`); a
  program's own record of the same lists is that record, so they apply to it by unification.
-/
import Idealize.ShloMosaic.Lib.ValueIdx

noncomputable section

namespace Cert.GatherRows

open Idealize.ShloMosaic Idealize.ShloMosaic.ValueIdx

variable {α : Type} {N E C w : Nat}

/-- The operand row a start index names: read signed, clamped into [0, N - 1]. -/
def rowOf (hN : 0 < N) (G : IVec ⟨2, ![E, 1]⟩ w) (a : Fin E) : Fin N :=
  ⟨min (G (ix2 a 0)).toInt.toNat (N - 1), by omega⟩

/-- A start index that reads as a row number in range names that row. -/
theorem rowOf_eq (hN : 0 < N) (G : IVec ⟨2, ![E, 1]⟩ w) (a : Fin E) (r : Fin N) (h : (G (ix2 a 0)).toInt = (r.val : ℤ)) :
    rowOf hN G a = r := by
  apply Fin.ext
  have := r.isLt
  show min (G (ix2 a 0)).toInt.toNat (N - 1) = r.val
  rw [h]
  simp only [Int.toNat_natCast]
  omega

/-- The 1-D gather's dimension numbers, over any sizes. -/
abbrev dims1 (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ := ⟨[], [0], [], [], [0], 1, ![1], wf⟩

/-- The row gather's dimension numbers, over any sizes. -/
abbrev dims2 (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ := ⟨[1], [0], [], [], [0], 1, ![1, C], wf⟩

/-- THE 1-D GATHER READ AT a: the operand at the row the start index names. -/
theorem gather1_apply (hN : 0 < N) (wf) (x : (⟨1, ![N]⟩ : Shape).Idx → α) (G : IVec ⟨2, ![E, 1]⟩ w) (a : Fin E) :
    Host.gather (dims1 (N := N) (E := E) wf) x G (ix1 a) = x (ix1 (rowOf hN G a)) := by
  unfold Host.gather
  congr 1
  funext b
  obtain rfl : b = 0 := Subsingleton.elim _ _
  refine Fin.ext ?_
  show (dims1 (N := N) (E := E) wf).start (ix1 a) G 0 + (dims1 (N := N) (E := E) wf).batchCoord (ix1 a) 0
      + (dims1 (N := N) (E := E) wf).offCoord (ix1 a) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (dims1 (N := N) (E := E) wf).startIndexMap from List.mem_singleton.mpr rfl)]
  have hsi : (dims1 (N := N) (E := E) wf).siIdx (ix1 a) ⟨List.idxOf (0 : Fin 1) (dims1 (N := N) (E := E) wf).startIndexMap,
      List.idxOf_lt_length_iff.2 (List.mem_singleton.mpr rfl)⟩ = ix2 a 0 := by
    funext c; refine Fin.ext ?_
    match c with
    | ⟨0, _⟩ => rfl
    | ⟨1, _⟩ => rfl
  rw [hsi]
  rfl

/-- THE ROW GATHER READ AT (a, c): the operand at the row the start index names, same column. -/
theorem gather2_apply (hN : 0 < N) (wf) (x : (⟨2, ![N, C]⟩ : Shape).Idx → α) (G : IVec ⟨2, ![E, 1]⟩ w) (a : Fin E) (c : Fin C) :
    Host.gather (dims2 (N := N) (E := E) (C := C) wf) x G (ix2 a c) = x (ix2 (rowOf hN G a) c) := by
  unfold Host.gather
  congr 1
  funext b
  refine Fin.ext ?_
  match b with
  | ⟨0, _⟩ =>
    -- the collapsed row axis: the clamped start index, no batching coordinate, no offset
    show (dims2 (N := N) (E := E) (C := C) wf).start (ix2 a c) G 0
        + (dims2 (N := N) (E := E) (C := C) wf).batchCoord (ix2 a c) 0
        + (dims2 (N := N) (E := E) (C := C) wf).offCoord (ix2 a c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims2 (N := N) (E := E) (C := C) wf).startIndexMap from List.mem_singleton.mpr rfl)]
    have hsi : (dims2 (N := N) (E := E) (C := C) wf).siIdx (ix2 a c)
        ⟨List.idxOf (0 : Fin 2) (dims2 (N := N) (E := E) (C := C) wf).startIndexMap,
          List.idxOf_lt_length_iff.2 (List.mem_singleton.mpr rfl)⟩ = ix2 a 0 := by
      funext e; refine Fin.ext ?_
      match e with
      | ⟨0, _⟩ => rfl
      | ⟨1, _⟩ => rfl
    rw [hsi]
    rfl
  | ⟨1, _⟩ =>
    -- the column axis, taken whole: start 0, no batching coordinate, the result's column as offset
    show (dims2 (N := N) (E := E) (C := C) wf).start (ix2 a c) G 1
        + (dims2 (N := N) (E := E) (C := C) wf).batchCoord (ix2 a c) 1
        + (dims2 (N := N) (E := E) (C := C) wf).offCoord (ix2 a c) 1 = c.val
    rw [GatherDims.batchCoord_eq_zero _ _ _ List.not_mem_nil]
    have hst : (dims2 (N := N) (E := E) (C := C) wf).start (ix2 a c) G 1 = 0 := by
      unfold GatherDims.start
      rw [dif_neg (by simp)]
    have hk : (1 : Fin 2) ∈ (dims2 (N := N) (E := E) (C := C) wf).sKept :=
      (GatherDims.mem_sKept _ _).mpr ⟨by simp, List.not_mem_nil⟩
    have hoff : (dims2 (N := N) (E := E) (C := C) wf).offCoord (ix2 a c) 1 = c.val := by
      unfold GatherDims.offCoord
      rw [dif_pos hk]
      rfl
    rw [hst, hoff]
    simp

end Cert.GatherRows

end
-- ==== Proof.LibIndexWrap.lean ====
/-
  Integer index arrays: what a signed "non-negative" test says at an index, and that the normalisation of a
  negative index leaves a non-negative index as it is.

  An index array v is normalised as  where (v < 0) (v + n) v  (n the extent of the axis indexed), so that -1
  names the last position. Where the index is already non-negative the normalised index is the index itself;
  a program that normalises and one that does not then read, and write, the same positions. The facts are
  stated at one index of arrays of any shape and width: the comparand only has to be the zero word THERE,
  which a broadcast zero is everywhere.
-/
import Idealize.ShloMosaic.Lib.ValueIdx
import Idealize.ShloMosaic.Lib.Affine

namespace Cert.IndexWrap

open Idealize.ShloMosaic

variable {s : Shape} {w : Nat}

/-- The signed test  v ≥ z  holding at an index where z is the zero word says the index there, read signed,
    is non-negative. -/
theorem nonneg_of_sge (v z : IVec s w) (i : s.Idx) (hz : z i = 0#w) (h : cmpi .sge v z i = 1#1) :
    0 ≤ (v i).toInt := by
  have h' : (z i).toInt ≤ (v i).toInt := IntOp.cmpi_sge.1 h
  rw [hz, BitVec.toInt_zero] at h'
  exact h'

/-- The signed test  v < z  at an index where z is the zero word and v is non-negative is the word 0. -/
theorem slt_eq_zero_of_nonneg (v z : IVec s w) (i : s.Idx) (hz : z i = 0#w) (hv : 0 ≤ (v i).toInt) :
    cmpi .slt v z i = 0#1 := by
  rcases BitVec.eq_zero_or_eq_one (cmpi .slt v z i) with h0 | h1
  · exact h0
  · have h' : (v i).toInt < (z i).toInt := IntOp.cmpi_slt.1 h1
    rw [hz, BitVec.toInt_zero] at h'
    omega

/-- THE NORMALISATION OF A NON-NEGATIVE INDEX IS THE INDEX:  where (v < 0) (v + n) v  at an index where v,
    read signed, is non-negative, is v there — whatever n is. -/
theorem wrap_of_nonneg (v z n : IVec s w) (i : s.Idx) (hz : z i = 0#w) (hv : 0 ≤ (v i).toInt) :
    select (cmpi .slt v z) (addi v n) v i = v i := by
  show Scalar.select (cmpi .slt v z i) (addi v n i) (v i) = v i
  rw [slt_eq_zero_of_nonneg v z i hz hv]
  exact if_neg (by decide)

/-- The same for the whole array, when the comparand is zero and the index non-negative everywhere. -/
theorem wrap_eq_self (v z n : IVec s w) (hz : ∀ i, z i = 0#w) (hv : ∀ i, 0 ≤ (v i).toInt) :
    select (cmpi .slt v z) (addi v n) v = v :=
  funext fun i => wrap_of_nonneg v z n i (hz i) (hv i)

end Cert.IndexWrap
-- ==== Proof.LibHostRead.lean ====
/-
  Host operations of an array program read at an index of literal coordinates, on the extended reals.

  A reference written with array operations spreads a row statistic over the row, views a flat axis as two, cuts one
  plane out of a stack, and sums along the last axis. Each operation, applied at an index built from its coordinates,
  reads its operand at ONE index; the lemmas below name that index.

  * broadcasts: `[a,b] → [a,b,1]`, `[a,b,1] → [a,b,c]`, `[b,c] → [1,b,c]`, `[1,b,c] → [a,b,c]`, `[a] → [a,1]`,
    `[a,1] → [a,c]`, `[c] → [1,c]`, `[1,c] → [a,c]`;
  * reshapes: `[a,n] → [a,b,c]` and `[n] → [b,c]` with `n = b·c` (position `g·c + k` of the flat axis), and
    `[a,1,c] → [a,c]`;
  * a unit-thick slice `[a,b,c] → [a,1,c]` at offset `g` of the middle axis;
  * the sum along the last axis of a rank-3 and of a rank-2 array: the initial value plus `∑ k`;
  * a product of two matrices contracting ONE axis of extent `n`: `∑ k : Fin n` of the operands at index families
    the caller names once.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.HostRead

open Idealize.ShloMosaic Idealize.ShloMosaic.ValueIdx

variable {α : Type}

/-! ## Broadcasts -/

/-- `[a,b] → [a,b,1]`: at `(r, g, u)` the operand at `(r, g)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin (⟨3, ![a, b, 1]⟩ : Shape).rank))
    (r : Fin a) (g : Fin b) (u : Fin 1) :
    broadcastInDim ⟨3, ![a, b, 1]⟩ ![0, 1] h x (ix3 r g u) = x (ix2 r g) := by
  refine broadcastInDim_apply _ h x (ix3 r g u) (ix2 r g) fun ax => ?_
  match ax with
  | ⟨0, _⟩ =>
    show r.val = if a = 1 then 0 else r.val
    split
    · have := r.isLt; omega
    · rfl
  | ⟨1, _⟩ =>
    show g.val = if b = 1 then 0 else g.val
    split
    · have := g.isLt; omega
    · rfl

/-- `[a,b,1] → [a,b,c]`: at `(r, g, k)` the operand at `(r, g, 0)`. -/
theorem bcast_ab1_abc_apply {a b c : ℕ} (v : (⟨3, ![a, b, 1]⟩ : Shape).Idx → α)
    (h : (⟨3, ![a, b, 1]⟩ : Shape).BroadcastsInDim ⟨3, ![a, b, c]⟩ (![0, 1, 2] : Fin 3 → Fin (⟨3, ![a, b, c]⟩ : Shape).rank))
    (r : Fin a) (g : Fin b) (k : Fin c) :
    broadcastInDim ⟨3, ![a, b, c]⟩ ![0, 1, 2] h v (ix3 r g k) = v (ix3 r g (0 : Fin 1)) := by
  refine broadcastInDim_apply _ h v (ix3 r g k) (ix3 r g (0 : Fin 1)) fun ax => ?_
  match ax with
  | ⟨0, _⟩ =>
    show r.val = if a = 1 then 0 else r.val
    split
    · have := r.isLt; omega
    · rfl
  | ⟨1, _⟩ =>
    show g.val = if b = 1 then 0 else g.val
    split
    · have := g.isLt; omega
    · rfl
  | ⟨2, _⟩ => rfl

/-- `[b,c] → [1,b,c]`: at `(u, g, k)` the operand at `(g, k)`. -/
theorem bcast_bc_1bc_apply {b c : ℕ} (x : (⟨2, ![b, c]⟩ : Shape).Idx → α)
    (h : (⟨2, ![b, c]⟩ : Shape).BroadcastsInDim ⟨3, ![1, b, c]⟩ (![1, 2] : Fin 2 → Fin (⟨3, ![1, b, c]⟩ : Shape).rank))
    (u : Fin 1) (g : Fin b) (k : Fin c) :
    broadcastInDim ⟨3, ![1, b, c]⟩ ![1, 2] h x (ix3 u g k) = x (ix2 g k) := by
  refine broadcastInDim_apply _ h x (ix3 u g k) (ix2 g k) fun ax => ?_
  match ax with
  | ⟨0, _⟩ =>
    show g.val = if b = 1 then 0 else g.val
    split
    · have := g.isLt; omega
    · rfl
  | ⟨1, _⟩ =>
    show k.val = if c = 1 then 0 else k.val
    split
    · have := k.isLt; omega
    · rfl

/-- `[1,b,c] → [a,b,c]`: at `(r, g, k)` the operand at `(0, g, k)`. -/
theorem bcast_1bc_abc_apply {a b c : ℕ} (v : (⟨3, ![1, b, c]⟩ : Shape).Idx → α)
    (h : (⟨3, ![1, b, c]⟩ : Shape).BroadcastsInDim ⟨3, ![a, b, c]⟩ (![0, 1, 2] : Fin 3 → Fin (⟨3, ![a, b, c]⟩ : Shape).rank))
    (r : Fin a) (g : Fin b) (k : Fin c) :
    broadcastInDim ⟨3, ![a, b, c]⟩ ![0, 1, 2] h v (ix3 r g k) = v (ix3 (0 : Fin 1) g k) := by
  refine broadcastInDim_apply _ h v (ix3 r g k) (ix3 (0 : Fin 1) g k) fun ax => ?_
  match ax with
  | ⟨0, _⟩ => rfl
  | ⟨1, _⟩ =>
    show g.val = if b = 1 then 0 else g.val
    split
    · have := g.isLt; omega
    · rfl
  | ⟨2, _⟩ =>
    show k.val = if c = 1 then 0 else k.val
    split
    · have := k.isLt; omega
    · rfl

/-- `[a] → [a,1]`: at `(r, u)` the operand at `r`. -/
theorem bcast_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (r : Fin a) (u : Fin 1) :
    broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- `[a,1] → [a,c]`: at `(r, k)` the operand at `(r, 0)`. -/
theorem bcast_a1_ac_apply {a c : ℕ} (v : (⟨2, ![a, 1]⟩ : Shape).Idx → α)
    (h : (⟨2, ![a, 1]⟩ : Shape).BroadcastsInDim ⟨2, ![a, c]⟩ (![0, 1] : Fin 2 → Fin (⟨2, ![a, c]⟩ : Shape).rank))
    (r : Fin a) (k : Fin c) :
    broadcastInDim ⟨2, ![a, c]⟩ ![0, 1] h v (ix2 r k) = v (ix2 r (0 : Fin 1)) := by
  refine broadcastInDim_apply _ h v (ix2 r k) (ix2 r (0 : Fin 1)) fun ax => ?_
  match ax with
  | ⟨0, _⟩ =>
    show r.val = if a = 1 then 0 else r.val
    split
    · have := r.isLt; omega
    · rfl
  | ⟨1, _⟩ => rfl

/-- `[c] → [1,c]`: at `(u, k)` the operand at `k`. -/
theorem bcast_c_1c_apply {c : ℕ} (x : (⟨1, ![c]⟩ : Shape).Idx → α)
    (h : (⟨1, ![c]⟩ : Shape).BroadcastsInDim ⟨2, ![1, c]⟩ (![1] : Fin 1 → Fin (⟨2, ![1, c]⟩ : Shape).rank))
    (u : Fin 1) (k : Fin c) :
    broadcastInDim ⟨2, ![1, c]⟩ ![1] h x (ix2 u k) = x (ix1 k) := by
  refine broadcastInDim_apply _ h x (ix2 u k) (ix1 k) fun ax => ?_
  match ax with
  | ⟨0, _⟩ =>
    show k.val = if c = 1 then 0 else k.val
    split
    · have := k.isLt; omega
    · rfl

/-- `[1,c] → [a,c]`: at `(r, k)` the operand at `(0, k)`. -/
theorem bcast_1c_ac_apply {a c : ℕ} (v : (⟨2, ![1, c]⟩ : Shape).Idx → α)
    (h : (⟨2, ![1, c]⟩ : Shape).BroadcastsInDim ⟨2, ![a, c]⟩ (![0, 1] : Fin 2 → Fin (⟨2, ![a, c]⟩ : Shape).rank))
    (r : Fin a) (k : Fin c) :
    broadcastInDim ⟨2, ![a, c]⟩ ![0, 1] h v (ix2 r k) = v (ix2 (0 : Fin 1) k) := by
  refine broadcastInDim_apply _ h v (ix2 r k) (ix2 (0 : Fin 1) k) fun ax => ?_
  match ax with
  | ⟨0, _⟩ => rfl
  | ⟨1, _⟩ =>
    show k.val = if c = 1 then 0 else k.val
    split
    · have := k.isLt; omega
    · rfl

/-! ## Reshapes -/

/-- `[a,n] → [a,b,c]` with `n = b·c`: at `(r, g, k)` the operand at `(r, q)`, `q = g·c + k`. -/
theorem shapeCast_an_abc_apply {a n b c : ℕ} (hn : n = b * c) (x : (⟨2, ![a, n]⟩ : Shape).Idx → α)
    (h : (⟨2, ![a, n]⟩ : Shape).ShapeCasts ⟨3, ![a, b, c]⟩) (r : Fin a) (g : Fin b) (k : Fin c) (q : Fin n)
    (hq : q.val = g.val * c + k.val) :
    shapeCast ⟨3, ![a, b, c]⟩ x h (ix3 r g k) = x (ix2 r q) :=
  shapeCast_apply x h _ _ (by
    rw [Shape.rowMajor_val_two, Shape.rowMajor_val_three]
    show r.val * n + q.val = (r.val * b + g.val) * c + k.val
    rw [hq, hn, Nat.add_mul, Nat.mul_assoc, Nat.add_assoc])

/-- `[n] → [b,c]`: at `(g, k)` the operand at `q = g·c + k`. -/
theorem shapeCast_n_bc_apply {n b c : ℕ} (x : (⟨1, ![n]⟩ : Shape).Idx → α)
    (h : (⟨1, ![n]⟩ : Shape).ShapeCasts ⟨2, ![b, c]⟩) (g : Fin b) (k : Fin c) (q : Fin n)
    (hq : q.val = g.val * c + k.val) :
    shapeCast ⟨2, ![b, c]⟩ x h (ix2 g k) = x (ix1 q) :=
  shapeCast_apply x h _ _ (by
    rw [Shape.rowMajor_val_one, Shape.rowMajor_val_two]
    exact hq)

/-- `[a,1,c] → [a,c]`: at `(r, k)` the operand at `(r, 0, k)`. -/
theorem shapeCast_a1c_ac_apply {a c : ℕ} (x : (⟨3, ![a, 1, c]⟩ : Shape).Idx → α)
    (h : (⟨3, ![a, 1, c]⟩ : Shape).ShapeCasts ⟨2, ![a, c]⟩) (r : Fin a) (k : Fin c) :
    shapeCast ⟨2, ![a, c]⟩ x h (ix2 r k) = x (ix3 r (0 : Fin 1) k) :=
  shapeCast_apply x h _ _ (by
    rw [Shape.rowMajor_val_three, Shape.rowMajor_val_two]
    show (r.val * 1 + 0) * c + k.val = r.val * c + k.val
    rw [Nat.mul_one, Nat.add_zero])

/-! ## A unit-thick slice of the middle axis -/

/-- `[a,b,c] → [a,1,c]` at offset `o` of the middle axis: at `(r, u, k)` the operand at `(r, g, k)`, `g = o`. -/
theorem slice_mid_apply {a b c : ℕ} (o : ℕ) (x : (⟨3, ![a, b, c]⟩ : Shape).Idx → α)
    (h : (⟨3, ![a, b, c]⟩ : Shape).Slices ![0, o, 0] ⟨3, ![a, 1, c]⟩) (r : Fin a) (u : Fin 1) (k : Fin c) (g : Fin b)
    (hg : g.val = o) :
    extractStridedSlice ⟨3, ![a, 1, c]⟩ ![0, o, 0] x h (ix3 r u k) = x (ix3 r g k) := by
  refine extractStridedSlice_apply _ x h (ix3 r u k) (ix3 r g k) fun ax => ?_
  match ax with
  | ⟨0, _⟩ => show r.val = 0 + r.val; omega
  | ⟨1, _⟩ => show g.val = o + u.val; omega
  | ⟨2, _⟩ => show k.val = 0 + k.val; omega

/-! ## Sums along the last axis -/

/-- Over `(r, g)`, the rank-3 index whose last coordinate is `k` is `(r, g, k)`. -/
theorem lift_last3 {a b c : ℕ} (h : (⟨3, ![a, b, c]⟩ : Shape).Reduces [(2 : Fin 3)] ⟨2, ![a, b]⟩) (r : Fin a) (g : Fin b)
    (k : Fin c) : h.lift (ix2 r g) k = ix3 r g k := by
  funext d
  refine Fin.ext ?_
  match d with
  | ⟨0, _⟩ => rfl
  | ⟨1, _⟩ => rfl
  | ⟨2, _⟩ => rfl

/-- Over `r`, the rank-2 index whose last coordinate is `k` is `(r, k)`. -/
theorem lift_last2 {a c : ℕ} (h : (⟨2, ![a, c]⟩ : Shape).Reduces [(1 : Fin 2)] ⟨1, ![a]⟩) (r : Fin a) (k : Fin c) :
    h.lift (ix1 r) k = ix2 r k := by
  funext d
  refine Fin.ext ?_
  match d with
  | ⟨0, _⟩ => rfl
  | ⟨1, _⟩ => rfl

/-- The host sum of a rank-3 array along its last axis, at `(r, g)`: the initial value plus `∑ k, x (r, g, k)`. -/
theorem reduceAdd_last3_apply {a b c : ℕ} {φ : FTy} {u : Shape} (x : FVec Ideal ⟨3, ![a, b, c]⟩ φ) (init : u.Idx → Ideal φ)
    (h' : (⟨3, ![a, b, c]⟩ : Shape).ReducesTo [(2 : Fin 3)] ⟨2, ![a, b]⟩) (hu : 0 < u.numel)
    (h : (⟨3, ![a, b, c]⟩ : Shape).Reduces [(2 : Fin 3)] ⟨2, ![a, b]⟩) (r : Fin a) (g : Fin b) :
    Host.reduceAdd x init h' hu (ix2 r g) = init (Shape.Idx.first hu) + ∑ k : Fin c, x (ix3 r g k) := by
  refine (hostReduceAdd_apply x init h' hu (ix2 r g)).trans ?_
  refine (Ideal.hostReduceAdd_single h' h x _ (ix2 r g)).trans ?_
  exact congrArg (_ + ·) (Finset.sum_congr rfl fun k _ => congrArg x (lift_last3 h r g k))

/-- The host sum of a rank-2 array along its last axis, at `r`: the initial value plus `∑ k, x (r, k)`. -/
theorem reduceAdd_last2_apply {a c : ℕ} {φ : FTy} {u : Shape} (x : FVec Ideal ⟨2, ![a, c]⟩ φ) (init : u.Idx → Ideal φ)
    (h' : (⟨2, ![a, c]⟩ : Shape).ReducesTo [(1 : Fin 2)] ⟨1, ![a]⟩) (hu : 0 < u.numel)
    (h : (⟨2, ![a, c]⟩ : Shape).Reduces [(1 : Fin 2)] ⟨1, ![a]⟩) (r : Fin a) :
    Host.reduceAdd x init h' hu (ix1 r) = init (Shape.Idx.first hu) + ∑ k : Fin c, x (ix2 r k) := by
  refine (hostReduceAdd_apply x init h' hu (ix1 r)).trans ?_
  refine (Ideal.hostReduceAdd_single h' h x _ (ix1 r)).trans ?_
  exact congrArg (_ + ·) (Finset.sum_congr rfl fun k _ => congrArg x (lift_last2 h r k))

/-! ## A product contracting one axis -/

/-- A host matrix product whose dimension numbers contract ONE axis of extent `n`, at an output index `j`:
    `∑ k : Fin n, lhs (L k) * rhs (R k)`, where `L k`, `R k` are the operand indices the dimension numbers assign to
    `j` and the contraction coordinate `k`. -/
theorem dotGeneral_read {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ k, D.lhsIdx j ((contrEquiv1 D n hr hs).symm k) = L k)
    (hr' : ∀ k, D.rhsIdx j ((contrEquiv1 D n hr hs).symm k) = R k) :
    Host.dotGeneral D prec lhs rhs j = ∑ k : Fin n, lhs (L k) * rhs (R k) := by
  simp only [Host.dotGeneral]
  rw [Ideal.dotGeneral_apply, ← Equiv.sum_comp (contrEquiv1 D n hr hs).symm]
  exact Finset.sum_congr rfl fun k _ => by rw [hl k, hr' k]

end Cert.HostRead

end
-- ==== Proof.LibGraphRead.lean ====
/-
  The array operations of one graph-convolution layer, each composite read at an index on the extended reals.

  A layer over `N` nodes, `E` edges and `C` feature columns is written with whole-array operations: a row gather
  of the node features by the edges' source indices, a product with the edge weights spread over the columns, an
  accumulating row scatter by the edges' target indices into a zero array, a bias spread over the rows, a
  rectification against a zero array; the edge weights of the symmetric normalisation are products of two
  gathers of the per-node scale with the bare weights; the per-node scale is the inverse square root of the
  weighted in-degree where that is positive and zero elsewhere; and the features enter through a plain matrix
  product. Each lemma below reads ONE such composite at an index and names the result in the vocabulary of the
  specification (`Cert.Proof.Gcn`): `agg`, `edgeNorm`, `dense`, the guarded inverse square root.

  * `lands I a r`: edge `a`'s target index, read signed, is the node `r` — the condition under which the scatter
    adds edge `a`'s row into row `r`; an index outside `[0, N)` lands nowhere.
  * `aggregate_apply`: the scatter of the gathered, weighted rows into zeros is `Gcn.agg`.
  * `edgeNorm_apply`: the product of the two gathered scales with the weight is `Gcn.edgeNorm`.
  * `scale_apply`, `scale_ok`: the guarded inverse square root at a node, and that it is non-negative and not `+∞`.
  * `target_readback`: an edge that lands on `r` has `r` as the node its normalised target index names in a gather.
  * `bias_apply`, `relu_apply`: the bias row added to every row; the maximum with zero.
  * `dense_apply`: the plain matrix product is `Gcn.dense`.

  Everything is generic in the extents and in the index width; dimension numbers are records built from any proof of
  their well-formedness and shape side conditions are variables, so a program's own records and proofs unify.
-/
import Idealize.ShloMosaic.PureOps.Ideal
import Idealize.ShloMosaic.PureOps.Ideal.Laws
import Idealize.ShloMosaic.PureOps.Contract
import Idealize.ShloMosaic.Lib.ValueIdx
import Idealize.ShloMosaic.Lib.IdealHost
import Idealize.ShloMosaic.Lib.Pipeline.Value
import proofs.«152032_j36206574306115_2_alg».proof.Proof.LibScatterAdd
import proofs.«152032_j36206574306115_2_alg».proof.Proof.LibGatherRows
import proofs.«152032_j36206574306115_2_alg».proof.Proof.LibIndexWrap
import proofs.«152032_j36206574306115_2_alg».proof.Proof.LibHostRead
import proofs.«152032_j36206574306115_2_alg».proof.Proof.LibPlainDot
import proofs.«152032_j36206574306115_2_alg».proof.Proof.LibGcnSpec

noncomputable section

open scoped BigOperators

namespace Cert.Proof.GraphRead

open Idealize.ShloMosaic Idealize.ShloMosaic.ValueIdx Cert.GatherRows

variable {N E C w w' : Nat}

/-! ## Where an edge lands -/

/-- Edge `a` lands on node `r`: its target index, read signed, is `r`. An index that is negative or at least `N`
    lands on no node. -/
def lands (I : IVec ⟨2, ![E, 1]⟩ w) (a : Fin E) (r : Fin N) : Prop := (I (ix2 a 0)).toInt = (r.val : ℤ)

instance instDecidableLands (I : IVec ⟨2, ![E, 1]⟩ w) (a : Fin E) (r : Fin N) : Decidable (lands I a r) :=
  inferInstanceAs (Decidable ((I (ix2 a 0)).toInt = (r.val : ℤ)))

/-! ## Zero arrays -/

/-- The zero word of the 32-bit float format spread from a scalar over any shape reads `0` everywhere. -/
theorem bcast_zero_apply {t : Shape} (h0 : (⟨0, ![]⟩ : Shape).BroadcastsInDim t (![] : Fin 0 → Fin t.rank)) (j : t.Idx) :
    broadcastInDim t ![] h0 (constant (F := Ideal) ⟨0, ![]⟩ .f32 0x00000000#32) j = (0 : EReal) :=
  (broadcastInDim_apply _ h0 _ j ix0 (fun a => a.elim0)).trans Ideal.ofBits_zero_f32

/-- The zero integer word spread from a scalar over any shape reads the zero word everywhere. -/
theorem bcast_zero_word_apply {t : Shape} (h0 : (⟨0, ![]⟩ : Shape).BroadcastsInDim t (![] : Fin 0 → Fin t.rank)) (j : t.Idx) :
    broadcastInDim t ![] h0 (constantI ⟨0, ![]⟩ w 0#w) j = 0#w :=
  broadcastInDim_apply _ h0 _ j ix0 (fun a => a.elim0)

/-! ## The aggregation -/

/-- The accumulating row scatter, by the target indices `I` and into a zero array, of the rows of `H` gathered by the
    source indices `G` and multiplied by the per-edge weight `v` spread over the columns: entry `(r, c)` is the sum,
    over the edges landing on `r`, of the source row's entry in column `c` times the edge's weight. -/
theorem aggregate_apply (hN : 0 < N)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (h0 : (⟨0, ![]⟩ : Shape).BroadcastsInDim ⟨2, ![N, C]⟩ (![] : Fin 0 → Fin (⟨2, ![N, C]⟩ : Shape).rank))
    (h1 : (⟨1, ![E]⟩ : Shape).BroadcastsInDim ⟨2, ![E, 1]⟩ (![0] : Fin 1 → Fin (⟨2, ![E, 1]⟩ : Shape).rank))
    (h2 : (⟨2, ![E, 1]⟩ : Shape).BroadcastsInDim ⟨2, ![E, C]⟩ (![0, 1] : Fin 2 → Fin (⟨2, ![E, C]⟩ : Shape).rank))
    (I : IVec ⟨2, ![E, 1]⟩ w) (G : IVec ⟨2, ![E, 1]⟩ w') (H : FVec Ideal ⟨2, ![N, C]⟩ .f32)
    (v : FVec Ideal ⟨1, ![E]⟩ .f32) (r : Fin N) (c : Fin C) :
    Host.scatterAdd (F := Ideal) (ScatterRows.dims2 wfs)
        (broadcastInDim ⟨2, ![N, C]⟩ ![] h0 (constant (F := Ideal) ⟨0, ![]⟩ .f32 0x00000000#32)) I
        (mulf (Host.gather (GatherRows.dims2 wfg) H G)
          (broadcastInDim ⟨2, ![E, C]⟩ ![0, 1] h2 (broadcastInDim ⟨2, ![E, 1]⟩ ![0] h1 v))) (ix2 r c)
      = Gcn.agg (lands I) (rowOf hN G) (fun u j => H (ix2 u j)) (fun a => v (ix1 a)) r c := by
  refine (ScatterRows.scatterAdd2_apply wfs _ I _ r c).trans ?_
  unfold Gcn.agg
  refine congrArg₂ (· + ·) (bcast_zero_apply h0 (ix2 r c)) (Finset.sum_congr rfl fun a _ => ?_)
  refine if_congr Iff.rfl ?_ rfl
  show Host.gather (GatherRows.dims2 wfg) H G (ix2 a c)
      * broadcastInDim ⟨2, ![E, C]⟩ ![0, 1] h2 (broadcastInDim ⟨2, ![E, 1]⟩ ![0] h1 v) (ix2 a c) = _
  rw [GatherRows.gather2_apply hN wfg H G a c, HostRead.bcast_a1_ac_apply _ h2 a c, HostRead.bcast_a_a1_apply v h1 a 0]

/-! ## The normalised edge weight -/

/-- The per-node scale gathered by the source indices, times the edge weight, times the scale gathered by the target
    indices: at edge `a` the product `(dis (σ a) · w a) · dis (δ a)`, `σ a` and `δ a` the nodes the two gathers read. -/
theorem edgeNorm_apply (hN : 0 < N)
    (wf1 : GatherDims.WF ⟨1, ![N]⟩ ⟨2, ![E, 1]⟩ ⟨1, ![E]⟩ [] [0] [] [0] [] 1 ![1])
    (dis : FVec Ideal ⟨1, ![N]⟩ .f32) (Gs : IVec ⟨2, ![E, 1]⟩ w) (Gd : IVec ⟨2, ![E, 1]⟩ w')
    (wv : FVec Ideal ⟨1, ![E]⟩ .f32) (a : Fin E) :
    mulf (mulf (Host.gather (GatherRows.dims1 wf1) dis Gs) wv) (Host.gather (GatherRows.dims1 wf1) dis Gd) (ix1 a)
      = Gcn.edgeNorm (rowOf hN Gs) (rowOf hN Gd) (fun u => dis (ix1 u)) (fun a => wv (ix1 a)) a := by
  show Host.gather (GatherRows.dims1 wf1) dis Gs (ix1 a) * wv (ix1 a) * Host.gather (GatherRows.dims1 wf1) dis Gd (ix1 a) = _
  rw [GatherRows.gather1_apply hN wf1 dis Gs a, GatherRows.gather1_apply hN wf1 dis Gd a]
  rfl

/-! ## The per-node scale -/

/-- The selection between the inverse square root of `deg` and a second array, by the test `deg > z`, at an index
    where `z` and the second array are zero: the inverse square root where `deg` is positive, zero elsewhere. -/
theorem guard_apply {s : Shape} (deg z z' : FVec Ideal s .f32) (i : s.Idx) (hz : z i = (0 : EReal)) (hz' : z' i = (0 : EReal)) :
    select (cmpf .ogt deg z) (Host.rsqrt deg) z' i = if 0 < deg i then Ideal.rsqrt (deg i) else 0 := by
  show Scalar.select (Ideal.cmp .ogt (deg i) (z i)) (Ideal.rsqrt (deg i)) (z' i) = _
  rw [hz, hz']
  by_cases hd : (0 : EReal) < deg i
  · rw [if_pos hd]
    have hc : Ideal.cmp .ogt (deg i) 0 = 1#1 := by
      show BitVec.ofBool (decide ((0 : EReal) < deg i)) = 1#1
      rw [decide_eq_true hd]; rfl
    rw [hc]; exact if_pos rfl
  · rw [if_neg hd]
    have hc : Ideal.cmp .ogt (deg i) 0 = 0#1 := by
      show BitVec.ofBool (decide ((0 : EReal) < deg i)) = 0#1
      rw [decide_eq_false hd]; rfl
    rw [hc]; exact if_neg (by decide)

/-- The per-node scale as the programs write it — the selection, by the test `deg > 0` against a zero array, between
    the inverse square root of `deg` and a zero array (its scalar passed through an identity conversion) — at node
    `u`, for ANY array `deg`: the inverse square root where `deg u` is positive, zero elsewhere. -/
theorem scale_apply (h : (⟨0, ![]⟩ : Shape).BroadcastsInDim ⟨1, ![N]⟩ (![] : Fin 0 → Fin (⟨1, ![N]⟩ : Shape).rank))
    (deg : FVec Ideal ⟨1, ![N]⟩ .f32) (u : Fin N) :
    select (cmpf .ogt deg (broadcastInDim ⟨1, ![N]⟩ ![] h (constant (F := Ideal) ⟨0, ![]⟩ .f32 0x00000000#32)))
        (Host.rsqrt deg)
        (broadcastInDim ⟨1, ![N]⟩ ![] h (id (constant (F := Ideal) ⟨0, ![]⟩ .f32 0x00000000#32))) (ix1 u)
      = if 0 < deg (ix1 u) then Ideal.rsqrt (deg (ix1 u)) else 0 :=
  guard_apply deg _ _ (ix1 u) (bcast_zero_apply h (ix1 u)) (bcast_zero_apply h (ix1 u))

/-- The per-node scale is a non-negative number other than `+∞`, whatever `deg` is. -/
theorem scale_ok (h : (⟨0, ![]⟩ : Shape).BroadcastsInDim ⟨1, ![N]⟩ (![] : Fin 0 → Fin (⟨1, ![N]⟩ : Shape).rank))
    (deg : FVec Ideal ⟨1, ![N]⟩ .f32) (u : Fin N) :
    (0 : EReal) ≤ select (cmpf .ogt deg (broadcastInDim ⟨1, ![N]⟩ ![] h (constant (F := Ideal) ⟨0, ![]⟩ .f32 0x00000000#32)))
        (Host.rsqrt deg)
        (broadcastInDim ⟨1, ![N]⟩ ![] h (id (constant (F := Ideal) ⟨0, ![]⟩ .f32 0x00000000#32))) (ix1 u)
      ∧ select (cmpf .ogt deg (broadcastInDim ⟨1, ![N]⟩ ![] h (constant (F := Ideal) ⟨0, ![]⟩ .f32 0x00000000#32)))
        (Host.rsqrt deg)
        (broadcastInDim ⟨1, ![N]⟩ ![] h (id (constant (F := Ideal) ⟨0, ![]⟩ .f32 0x00000000#32))) (ix1 u) ≠ (⊤ : EReal) := by
  rw [scale_apply h deg u]
  exact Gcn.guarded_nonneg_ne_top (deg (ix1 u))

/-! ## The target read back as a node -/

/-- An edge that lands on `r` — its target index `d a`, read signed, is `r` — has `r` as the node a gather reads
    through the NORMALISED target index `where (d < z) (d + n) d`, at an edge where `z` is the zero word: the index
    is non-negative there, so the normalisation leaves it, and it is in range, so the gather's clamp leaves it. -/
theorem target_readback_of_zero (hN : 0 < N)
    (h1 : (⟨1, ![E]⟩ : Shape).BroadcastsInDim ⟨2, ![E, 1]⟩ (![0] : Fin 1 → Fin (⟨2, ![E, 1]⟩ : Shape).rank))
    (d z n : IVec ⟨1, ![E]⟩ w) (a : Fin E) (r : Fin N) (hz : z (ix1 a) = 0#w)
    (hl : lands (broadcastInDim ⟨2, ![E, 1]⟩ ![0] h1 d) a r) :
    rowOf hN (broadcastInDim ⟨2, ![E, 1]⟩ ![0] h1 (select (cmpi .slt d z) (addi d n) d)) a = r := by
  have hd : (d (ix1 a)).toInt = (r.val : ℤ) := by
    have e := HostRead.bcast_a_a1_apply d h1 a 0
    unfold lands at hl
    rw [e] at hl
    exact hl
  refine rowOf_eq hN _ a r ?_
  rw [HostRead.bcast_a_a1_apply _ h1 a 0, IndexWrap.wrap_of_nonneg d z n (ix1 a) hz (by rw [hd]; exact Int.natCast_nonneg _)]
  exact hd

/-- The same with the comparand written as the programs write it, the zero word spread from a scalar. -/
theorem target_readback (hN : 0 < N)
    (h0 : (⟨0, ![]⟩ : Shape).BroadcastsInDim ⟨1, ![E]⟩ (![] : Fin 0 → Fin (⟨1, ![E]⟩ : Shape).rank))
    (h1 : (⟨1, ![E]⟩ : Shape).BroadcastsInDim ⟨2, ![E, 1]⟩ (![0] : Fin 1 → Fin (⟨2, ![E, 1]⟩ : Shape).rank))
    (d n : IVec ⟨1, ![E]⟩ w) (a : Fin E) (r : Fin N)
    (hl : lands (broadcastInDim ⟨2, ![E, 1]⟩ ![0] h1 d) a r) :
    rowOf hN (broadcastInDim ⟨2, ![E, 1]⟩ ![0] h1
      (select (cmpi .slt d (broadcastInDim ⟨1, ![E]⟩ ![] h0 (constantI ⟨0, ![]⟩ w 0#w))) (addi d n) d)) a = r :=
  target_readback_of_zero hN h1 d _ n a r (bcast_zero_word_apply h0 (ix1 a)) hl

/-! ## Bias and rectification -/

/-- A bias vector given a unit leading axis, spread over the rows and added: entry `(r, c)` gains `b c`. -/
theorem bias_apply
    (h1 : (⟨1, ![C]⟩ : Shape).BroadcastsInDim ⟨2, ![1, C]⟩ (![1] : Fin 1 → Fin (⟨2, ![1, C]⟩ : Shape).rank))
    (h2 : (⟨2, ![1, C]⟩ : Shape).BroadcastsInDim ⟨2, ![N, C]⟩ (![0, 1] : Fin 2 → Fin (⟨2, ![N, C]⟩ : Shape).rank))
    (A : FVec Ideal ⟨2, ![N, C]⟩ .f32) (b : FVec Ideal ⟨1, ![C]⟩ .f32) (r : Fin N) (c : Fin C) :
    addf A (broadcastInDim ⟨2, ![N, C]⟩ ![0, 1] h2 (broadcastInDim ⟨2, ![1, C]⟩ ![1] h1 b)) (ix2 r c)
      = A (ix2 r c) + b (ix1 c) := by
  show A (ix2 r c) + broadcastInDim ⟨2, ![N, C]⟩ ![0, 1] h2 (broadcastInDim ⟨2, ![1, C]⟩ ![1] h1 b) (ix2 r c) = _
  rw [HostRead.bcast_1c_ac_apply _ h2 r c, HostRead.bcast_c_1c_apply b h1 0 c]

/-- The maximum with a zero array: entry `(r, c)` is `max (x (r, c)) 0`. -/
theorem relu_apply
    (h0 : (⟨0, ![]⟩ : Shape).BroadcastsInDim ⟨2, ![N, C]⟩ (![] : Fin 0 → Fin (⟨2, ![N, C]⟩ : Shape).rank))
    (x : FVec Ideal ⟨2, ![N, C]⟩ .f32) (r : Fin N) (c : Fin C) :
    maximumf x (broadcastInDim ⟨2, ![N, C]⟩ ![] h0 (constant (F := Ideal) ⟨0, ![]⟩ .f32 0x00000000#32)) (ix2 r c)
      = max (x (ix2 r c)) 0 := by
  show max (x (ix2 r c)) (broadcastInDim ⟨2, ![N, C]⟩ ![] h0 (constant (F := Ideal) ⟨0, ![]⟩ .f32 0x00000000#32) (ix2 r c)) = _
  rw [bcast_zero_apply h0 (ix2 r c)]

/-! ## The matrix product -/

/-- The plain product's dimension numbers, from any proof of their well-formedness. -/
abbrev dimsDot (wf : DotDims.WF ⟨2, ![N, C]⟩ ⟨2, ![C, C]⟩ ⟨2, ![N, C]⟩ [1] [0] [0] [1] [] []) :
    DotDims ⟨2, ![N, C]⟩ ⟨2, ![C, C]⟩ ⟨2, ![N, C]⟩ := ⟨[1], [0], [0], [1], [], [], wf⟩

/-- The host's product of an `N × C` array with a `C × C` array, contracting the first's columns with the second's
    rows: entry `(r, c)` is `∑ j, X (r, j) · W (j, c)`. -/
theorem dense_apply (prec : Option ContractPrecision) (X : FVec Ideal ⟨2, ![N, C]⟩ .f32) (W : FVec Ideal ⟨2, ![C, C]⟩ .f32)
    (r : Fin N) (c : Fin C) :
    Host.dotGeneral (F := Ideal) (DotDims.plain N C C) prec X W (ix2 r c)
      = Gcn.dense (fun u j => X (ix2 u j)) (fun i j => W (ix2 i j)) r c :=
  PlainDot.dotGeneral_plain prec .single X W (ix2 r c)

/-- The same for dimension numbers given as a record built from any proof of their well-formedness. -/
theorem dense_apply' (wf : DotDims.WF ⟨2, ![N, C]⟩ ⟨2, ![C, C]⟩ ⟨2, ![N, C]⟩ [1] [0] [0] [1] [] [])
    (prec : Option ContractPrecision) (X : FVec Ideal ⟨2, ![N, C]⟩ .f32) (W : FVec Ideal ⟨2, ![C, C]⟩ .f32)
    (r : Fin N) (c : Fin C) :
    Host.dotGeneral (F := Ideal) (dimsDot wf) prec X W (ix2 r c)
      = Gcn.dense (fun u j => X (ix2 u j)) (fun i j => W (ix2 i j)) r c :=
  dense_apply prec X W r c

end Cert.Proof.GraphRead

end
-- ==== Proof.KernelEntry.lean ====
/-
  The kernel program's first result, entry by entry, in the vocabulary of the specification: the epilogue reads,
  at `(i, q)`, the scale of the masked node `μ i` times the second aggregate at `(μ i, q)`, plus the bias; each
  aggregate reads as the specification's `agg` over the edges landing on the row; the second region's output array
  is the specification's scaled second product of the hidden layer, and the first region's the scaled first product.
-/
import proofs.«152032_j36206574306115_2_alg».proof.Proof.KernelStages
import proofs.«152032_j36206574306115_2_alg».proof.Proof.LibGraphRead
import proofs.«152032_j36206574306115_2_alg».proof.Proof.LibColumns
import Idealize.ShloMosaic.Lib.ValueLayout

set_option maxRecDepth 16384

noncomputable section

open scoped BigOperators

namespace Cert.KernelIdeal.Entry

open Cert.KernelIdeal Cert.KernelIdeal.Gen Cert.KernelIdeal.Stage
open Idealize.ShloMosaic Idealize.ShloMosaic.ValueIdx
open Cert.Proof Cert.Proof.GraphRead Cert.GatherRows

theorem hN : 0 < 100000 := by decide

variable (x0 : FVec Ideal S100000x128 .f32) (x1 : FVec Ideal S1600000 .f32) (x2 : FVec Ideal S128x128 .f32)
  (x3 : FVec Ideal S128 .f32) (x4 : FVec Ideal S128x128 .f32) (x5 : FVec Ideal S128 .f32)
  (x6 : IVec S2x1600000 32) (x7 : IVec S5000 32)

/-- An edge lands on node `r` when its target word, read signed, is `r`. -/
abbrev land : Fin 1700000 → Fin 100000 → Prop := lands (N := 100000) (rawIdx (dstWords x6))
/-- The node an edge reads its features from. -/
abbrev src : Fin 1700000 → Fin 100000 := rowOf hN (normIdx (srcWords x6))
/-- The edge's target read back as a node. -/
abbrev tgt : Fin 1700000 → Fin 100000 := rowOf hN (normIdx (dstWords x6))
/-- The per-node scale. -/
abbrev dis (u : Fin 100000) : EReal := scale (F := Ideal) x1 x6 (ix1 u)
/-- The per-edge weight. -/
abbrev wt (a : Fin 1700000) : EReal := weights (F := Ideal) x1 (ix1 a)
/-- The masked node of output row `i`. -/
abbrev node : Fin 5000 → Fin 100000 := rowOf hN (maskIdx x7)

/-- The scale column at row `u` is the scale of node `u`. -/
theorem scaleCol_read (u : Fin 100000) : scaleCol (F := Ideal) x1 x6 (ix2 u (0 : Fin 1)) = dis x1 x6 u :=
  Cert.Proof.Columns.shapeCast_a_a1_apply (scale (F := Ideal) x1 x6) _ u 0

/-- One aggregation read at an entry. -/
theorem aggr_read (H : FVec Ideal S100000x128 .f32) (r : Fin 100000) (q : Fin 128) :
    aggr (F := Ideal) H (srcWords x6) (dstWords x6) (weights x1) (ix2 r q)
      = Gcn.agg (land x6) (src x6) (fun u j => H (ix2 u j)) (wt x1) r q := by
  unfold aggr
  exact aggregate_apply hN _ _ _ _ _ (rawIdx (dstWords x6)) (normIdx (srcWords x6)) H (weights x1) r q

/-- The gathered scale column, spread over the lanes, at an entry: the scale of the masked node. -/
theorem scaleRow_read (i : Fin 5000) (q : Fin 128) :
    broadcastInDim S5000x128 ![0, 1] bcast_S5000x1_S5000x128_0_1
      (Host.gather gather_S100000x1_S5000x1_S5000x1_1_0_n_n_0_1_11 (scaleCol (F := Ideal) x1 x6) (maskIdx x7)) (ix2 i q)
      = dis x1 x6 (node x7 i) := by
  refine (Cert.HostRead.bcast_a1_ac_apply _ _ i q).trans ?_
  refine (gather2_apply hN _ (scaleCol (F := Ideal) x1 x6) (maskIdx x7) i (0 : Fin 1)).trans ?_
  exact scaleCol_read x1 x6 _

/-- A row gather by the mask at an entry: the masked node's row. -/
theorem maskRow_read (A : FVec Ideal S100000x128 .f32) (i : Fin 5000) (q : Fin 128) :
    Host.gather gather_S100000x128_S5000x1_S5000x128_1_0_n_n_0_1_1128 A (maskIdx x7) (ix2 i q) = A (ix2 (node x7 i) q) :=
  gather2_apply hN _ A (maskIdx x7) i q

/-- The bias spread over the rows at an entry. -/
theorem biasRow_read (i : Fin 5000) (q : Fin 128) :
    broadcastInDim S5000x128 ![0, 1] bcast_S1x128_S5000x128_0_1 (broadcastInDim S1x128 ![1] bcast_S128_S1x128_1 x5) (ix2 i q)
      = x5 (ix1 q) :=
  (Cert.HostRead.bcast_1c_ac_apply _ _ i q).trans (Cert.HostRead.bcast_c_1c_apply x5 _ 0 q)

/-- The epilogue read at an entry. -/
theorem outRows_read (A : FVec Ideal S100000x128 .f32) (i : Fin 5000) (q : Fin 128) :
    outRows (F := Ideal) A (scaleCol x1 x6) x7 x5 (ix2 i q)
      = dis x1 x6 (node x7 i) * A (ix2 (node x7 i) q) + x5 (ix1 q) := by
  unfold outRows
  rw [addf_apply, mulf_apply, scaleRow_read, maskRow_read, biasRow_read]

/-- THE FIRST RESULT, entry by entry, from the two regions' output arrays read as functions of their inputs. -/
theorem out_eq_kerOut (R0 R1 : FVec Ideal S100000x128 .f32)
    (hR0 : ∀ (u : Fin 100000) (j : Fin 128),
      R0 (ix2 u j) = (∑ k : Fin 128, x0 (ix2 u k) * x2 (ix2 k j)) * scaleCol (F := Ideal) x1 x6 (ix2 u (0 : Fin 1)))
    (hR1 : ∀ (u : Fin 100000) (j : Fin 128),
      R1 (ix2 u j) = (∑ k : Fin 128,
          max (aggr (F := Ideal) R0 (srcWords x6) (dstWords x6) (weights x1) (ix2 u k)
                * scaleCol (F := Ideal) x1 x6 (ix2 u (0 : Fin 1))
              + shapeCast S1x128 x3 shapeCasts_S128_S1x128 (ix2 (0 : Fin 1) k)) 0
            * x4 (ix2 k j))
        * scaleCol (F := Ideal) x1 x6 (ix2 u (0 : Fin 1)))
    (i : Fin 5000) (q : Fin 128) :
    outRows (F := Ideal) (aggr (F := Ideal) R1 (srcWords x6) (dstWords x6) (weights x1)) (scaleCol x1 x6) x7 x5 (ix2 i q)
      = Gcn.kerOut (land x6) (src x6) (dis x1 x6) (wt x1) (fun u j => x0 (ix2 u j)) (fun a b => x2 (ix2 a b))
          (fun j => x3 (ix1 j)) (fun a b => x4 (ix2 a b)) (fun j => x5 (ix1 j)) (node x7 i) q := by
  have h0 : (fun u j => R0 (ix2 u j)) = Gcn.kerFirst (dis x1 x6) (fun u j => x0 (ix2 u j)) (fun a b => x2 (ix2 a b)) := by
    funext u j
    rw [hR0 u j, scaleCol_read]
    rfl
  have h1 : (fun u j => R1 (ix2 u j))
      = Gcn.kerSecond (land x6) (src x6) (dis x1 x6) (wt x1) (fun u j => x0 (ix2 u j)) (fun a b => x2 (ix2 a b))
          (fun j => x3 (ix1 j)) (fun a b => x4 (ix2 a b)) := by
    funext u j
    rw [hR1 u j, scaleCol_read]
    unfold Gcn.kerSecond Gcn.dense
    refine congrArg (· * dis x1 x6 u) (Finset.sum_congr rfl fun k _ => congrArg (· * x4 (ix2 k j)) ?_)
    unfold Gcn.kerHidden
    refine congrArg (max · 0) (congrArg₂ (· + ·) (congrArg (· * dis x1 x6 u) ?_) ?_)
    · rw [aggr_read, h0]
    · exact shapeCast_a_1a_apply x3 _ 0 k
  rw [outRows_read, aggr_read, h1]
  rfl

end Cert.KernelIdeal.Entry

end
-- ==== Proof.KernelResult.lean ====
/-
  The kernel program's two results as functions of its arguments: the contents the run's fold names at the result
  buffers, walked back to the argument arrays through the two regions (each region's output array the layer function
  of what the region found in its input arrays) and the host stretches, then read entry by entry into the
  specification's other arrangement `Gcn.kerOut`; the second result is the labels gathered at the masked nodes.
-/
import proofs.«152032_j36206574306115_2_alg».proof.Proof.KernelFold
import proofs.«152032_j36206574306115_2_alg».proof.Proof.RegionArrays
import proofs.«152032_j36206574306115_2_alg».proof.Proof.KernelEntry

set_option maxRecDepth 16384

noncomputable section

open scoped BigOperators

namespace Cert.KernelIdeal.Result

open Cert.KernelIdeal Cert.KernelIdeal.Gen Cert.KernelIdeal.Stage Cert.KernelIdeal.Fold Cert.KernelIdeal.Entry
open Idealize.ShloMosaic Idealize.ShloMosaic.ValueIdx Idealize.ShloMosaic.TcCoe Idealize.SL.Sem
open Cert.Proof

variable (m : (ℓ : Loc nD τ sig) → Buf (Elt Ideal) ℓ) (ρ : Dev nD → PrngReg) (c : Dev nD)
variable (x0 : FVec Ideal S100000x128 .f32) (x1 : FVec Ideal S1600000 .f32) (x2 : FVec Ideal S128x128 .f32)
  (x3 : FVec Ideal S128 .f32) (x4 : FVec Ideal S128x128 .f32) (x5 : FVec Ideal S128 .f32)
  (x6 : IVec S2x1600000 32) (x7 : IVec S5000 32) (x8 : IVec S100000 32)

/-- The first region's output array, entry by entry: the features times the first weight matrix, rows scaled. -/
theorem region0 (h0 : m ((c : Thread nD τ).loc main_arg0) = x0) (h1 : m ((c : Thread nD τ).loc main_arg1) = x1)
    (h2 : m ((c : Thread nD τ).loc main_arg2) = x2) (h6 : m ((c : Thread nD τ).loc main_arg6) = x6)
    (u : Fin 100000) (j : Fin 128) :
    ((dat0 (F := Ideal) (V3 m ρ) c).arrAt 3 cfg0.N : S100000x128.Idx → EReal) (ix2 u j)
      = (∑ k : Fin 128, x0 (ix2 u k) * x2 (ix2 k j)) * scaleCol (F := Ideal) x1 x6 (ix2 u (0 : Fin 1)) :=
  RegionArrays.final0 (V3 m ρ) c x0 x2 (scaleCol (F := Ideal) x1 x6)
    (by show W3 m ρ c (Proc.devRef .tc main_arg0) = _; rw [W3_arg0, h0])
    (by show W3 m ρ c (Proc.devRef .tc main_arg2) = _; rw [W3_arg2, h2])
    (by show W3 m ρ c (Proc.devRef .tc main_v16) = _; rw [W3_v16, h1, h6]) u j

/-- The second region's output array, entry by entry, over the first aggregate. -/
theorem region1 (h1 : m ((c : Thread nD τ).loc main_arg1) = x1) (h3 : m ((c : Thread nD τ).loc main_arg3) = x3)
    (h4 : m ((c : Thread nD τ).loc main_arg4) = x4) (h6 : m ((c : Thread nD τ).loc main_arg6) = x6)
    (u : Fin 100000) (j : Fin 128) :
    ((dat1 (F := Ideal) (V5 m ρ) c).arrAt 4 cfg1.N : S100000x128.Idx → EReal) (ix2 u j)
      = (∑ k : Fin 128,
          max (aggr (F := Ideal) ((dat0 (F := Ideal) (V3 m ρ) c).arrAt 3 cfg0.N) (srcWords x6) (dstWords x6) (weights x1) (ix2 u k)
                * scaleCol (F := Ideal) x1 x6 (ix2 u (0 : Fin 1))
              + shapeCast S1x128 x3 shapeCasts_S128_S1x128 (ix2 (0 : Fin 1) k)) 0
            * x4 (ix2 k j))
        * scaleCol (F := Ideal) x1 x6 (ix2 u (0 : Fin 1)) :=
  RegionArrays.final1 (V5 m ρ) c
    (aggr (F := Ideal) ((dat0 (F := Ideal) (V3 m ρ) c).arrAt 3 cfg0.N) (srcWords x6) (dstWords x6) (weights x1))
    (scaleCol (F := Ideal) x1 x6) (shapeCast S1x128 x3 shapeCasts_S128_S1x128) x4
    (by show W5 m ρ c (Proc.devRef .tc main_v30) = _
        rw [W5_v30, W4_v17, W4_v5, W3_v5, W4_v6, W3_v6, W4_v8, W3_v8, h6, h1])
    (by show W5 m ρ c (Proc.devRef .tc main_v16) = _; rw [W5_v16, W4_v16, W3_v16, h1, h6])
    (by show W5 m ρ c (Proc.devRef .tc main_v31) = _; rw [W5_v31, W4_arg3, W3_arg3, h3])
    (by show W5 m ρ c (Proc.devRef .tc main_arg4) = _; rw [W5_arg4, W4_arg4, W3_arg4, h4]) u j

/-- The first result buffer's final contents: the epilogue of the second aggregate. -/
theorem first_fold (h1 : m ((c : Thread nD τ).loc main_arg1) = x1) (h5 : m ((c : Thread nD τ).loc main_arg5) = x5)
    (h6 : m ((c : Thread nD τ).loc main_arg6) = x6) (h7 : m ((c : Thread nD τ).loc main_arg7) = x7) :
    W7 m ρ c (Proc.devRef .tc main_v64)
      = outRows (F := Ideal)
          (aggr (F := Ideal) ((dat1 (F := Ideal) (V5 m ρ) c).arrAt 4 cfg1.N) (srcWords x6) (dstWords x6) (weights x1))
          (scaleCol (F := Ideal) x1 x6) x7 x5 := by
  rw [W7_v64, W6_v32, W6_v5, W5_v5, W4_v5, W3_v5, W6_v6, W5_v6, W4_v6, W3_v6, W6_v8, W5_v8, W4_v8, W3_v8,
    W6_v16, W5_v16, W4_v16, W3_v16, W6_arg7, W5_arg7, W4_arg7, W3_arg7, W6_arg5, W5_arg5, W4_arg5, W3_arg5,
    h6, h1, h7, h5]

/-- THE FIRST RESULT, entry by entry. -/
theorem first_result (h0 : m ((c : Thread nD τ).loc main_arg0) = x0) (h1 : m ((c : Thread nD τ).loc main_arg1) = x1)
    (h2 : m ((c : Thread nD τ).loc main_arg2) = x2) (h3 : m ((c : Thread nD τ).loc main_arg3) = x3)
    (h4 : m ((c : Thread nD τ).loc main_arg4) = x4) (h5 : m ((c : Thread nD τ).loc main_arg5) = x5)
    (h6 : m ((c : Thread nD τ).loc main_arg6) = x6) (h7 : m ((c : Thread nD τ).loc main_arg7) = x7)
    (i : Fin 5000) (q : Fin 128) :
    (W7 m ρ c (Proc.devRef .tc main_v64) : S5000x128.Idx → EReal) (ix2 i q)
      = Gcn.kerOut (land x6) (src x6) (dis x1 x6) (wt x1) (fun u j => x0 (ix2 u j)) (fun a b => x2 (ix2 a b))
          (fun j => x3 (ix1 j)) (fun a b => x4 (ix2 a b)) (fun j => x5 (ix1 j)) (node x7 i) q := by
  rw [first_fold m ρ c x1 x5 x6 x7 h1 h5 h6 h7]
  exact out_eq_kerOut x0 x1 x2 x3 x4 x5 x6 x7 _ _
    (region0 m ρ c x0 x1 x2 x6 h0 h1 h2 h6) (region1 m ρ c x1 x3 x4 x6 h1 h3 h4 h6) i q

/-- THE SECOND RESULT: the labels at the masked nodes. -/
theorem second_result (h7 : m ((c : Thread nD τ).loc main_arg7) = x7) (h8 : m ((c : Thread nD τ).loc main_arg8) = x8) :
    W7 m ρ c (Proc.devRef .tc main_v71) = labels x8 x7 := by
  rw [W7_v71, W6_arg8, W5_arg8, W4_arg8, W3_arg8, W6_arg7, W5_arg7, W4_arg7, W3_arg7, h8, h7]

end Cert.KernelIdeal.Result

end
-- ==== Proof.RefValue.lean ====
/-
  The printed reference, read at an index: two layers of the graph convolution of the specification.

  The reference computes, per layer, the edge lists (the given edges followed by one self loop per node), the edge
  weights (the given weights followed by ones), the weighted in-degree by an accumulating scatter, the per-node
  scale as its guarded inverse square root, the normalised weight of every edge as the product of the scales of its
  two ends with its weight, the matrix product of the features, the gather of its rows along the edges, the
  product with the normalised weights, the accumulating scatter by the targets, and the bias; a rectification sits
  between the layers and a row gather by the mask indices ends the program.

  With `σ a` and `δ a` the nodes the gathers read for edge `a`'s source and target, `land a r` the condition that
  the scatter adds edge `a` into node `r`, `dis u` the per-node scale, `wgt a` the edge's weight and `μ m` the node
  the `m`-th mask index names, entry `(m, c)` of the result is `Gcn.refOut … (μ m) c` (`ref_value`). The second layer
  recomputes the edge lists, the weights, the degree and the scale: those stages are the first layer's, term for
  term, so one set of names serves both layers. Two facts about the names go with the value: every `dis u` is a
  non-negative number other than `+∞` (`ref_dis_ok`), and an edge that lands on `r` has `δ a = r` (`ref_delta`).
-/
import proofs.«152032_j36206574306115_2_alg».proof.Proof.Gen.ReferenceIdeal.Read
import proofs.«152032_j36206574306115_2_alg».proof.Proof.LibGraphRead
import proofs.«152032_j36206574306115_2_alg».proof.Proof.LibGcnSpec

noncomputable section

open scoped BigOperators

namespace Cert.ReferenceIdeal.RefValue

open Idealize.ShloMosaic Idealize.ShloMosaic.ValueIdx Cert.GatherRows Cert.Proof Cert.Proof.GraphRead

variable (x0 : (⟨S100000x128, .f32⟩ : BufTy).Contents (Elt Ideal)) (x1 : (⟨S1600000, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S2x1600000, .i32⟩ : BufTy).Contents (Elt Ideal)) (x7 : (⟨S5000, .i32⟩ : BufTy).Contents (Elt Ideal))

/-! ## The names -/

/-- The node whose row edge `a` reads: its normalised source index, as a gather reads it. -/
abbrev σ : Fin 1700000 → Fin 100000 := rowOf (N := 100000) (by decide) (Read.val_main_v38 (F := Ideal) x6)

/-- The node edge `a`'s normalised target index names, as a gather reads it. -/
abbrev δ : Fin 1700000 → Fin 100000 := rowOf (N := 100000) (by decide) (Read.val_main_v29 (F := Ideal) x6)

/-- Edge `a` is added into node `r` by the scatters. -/
abbrev land : Fin 1700000 → Fin 100000 → Prop := lands (N := 100000) (Read.val_main_v44 (F := Ideal) x6)

/-- The per-node scale. -/
abbrev dis : Fin 100000 → EReal := fun u => Read.val_main_v15 (F := Ideal) x1 x6 (ix1 u)

/-- The edge weights: the given ones, then a one per self loop. -/
abbrev wgt : Fin 1700000 → EReal := fun a => Read.val_main_v8 (F := Ideal) x1 (ix1 a)

/-- The node the `m`-th mask index names, as the final gather reads it. -/
abbrev μ : Fin 5000 → Fin 100000 := rowOf (N := 100000) (by decide) (Read.val_main_v100 (F := Ideal) x7)

/-! ## The second layer's recomputed stages are the first layer's -/

theorem v51_eq : Read.val_main_v51 (F := Ideal) x6 = Read.val_main_v5 x6 := rfl
theorem v52_eq : Read.val_main_v52 (F := Ideal) x6 = Read.val_main_v6 x6 := rfl
theorem v54_eq : Read.val_main_v54 (F := Ideal) x1 = Read.val_main_v8 x1 := rfl
theorem v21_eq : Read.val_main_v21 (F := Ideal) x6 = Read.val_main_v38 x6 := rfl
theorem v61_eq : Read.val_main_v61 (F := Ideal) x1 x6 = Read.val_main_v15 x1 x6 := rfl
theorem v67_eq : Read.val_main_v67 (F := Ideal) x6 = Read.val_main_v38 x6 := rfl
theorem v75_eq : Read.val_main_v75 (F := Ideal) x6 = Read.val_main_v29 x6 := rfl
theorem v84_eq : Read.val_main_v84 (F := Ideal) x6 = Read.val_main_v38 x6 := rfl
theorem v90_eq : Read.val_main_v90 (F := Ideal) x6 = Read.val_main_v44 x6 := rfl

/-! ## The first layer -/

/-- The first layer's normalised edge weights. -/
theorem norm1 (a : Fin 1700000) :
    Read.val_main_v31 (F := Ideal) x1 x6 (ix1 a) = Gcn.edgeNorm (σ x6) (δ x6) (dis x1 x6) (wgt x1) a := by
  unfold Read.val_main_v31 Read.val_main_v23 Read.val_main_v22 Read.val_main_v30
  refine (edgeNorm_apply (N := 100000) (by decide) Gen.gather_S100000_S1700000x1_S1700000_n_0_n_n_0_1_1_wf
    (Read.val_main_v15 x1 x6) (Read.val_main_v21 x6) (Read.val_main_v29 x6) (Read.val_main_v8 x1) a).trans ?_
  rw [v21_eq]

/-- The first matrix product. -/
theorem xw1 (u : Fin 100000) (j : Fin 128) :
    Read.val_main_v32 (F := Ideal) x0 x2 (ix2 u j)
      = Gcn.dense (fun u j => x0 (ix2 u j)) (fun i j => x2 (ix2 i j)) u j := by
  unfold Read.val_main_v32
  exact dense_apply (N := 100000) (C := 128) none x0 x2 u j

/-- The first aggregation. -/
theorem agg1 (u : Fin 100000) (j : Fin 128) :
    Read.val_main_v45 (F := Ideal) x0 x1 x2 x6 (ix2 u j)
      = Gcn.agg (land x6) (σ x6) (Gcn.dense (fun u j => x0 (ix2 u j)) (fun i j => x2 (ix2 i j)))
          (Gcn.edgeNorm (σ x6) (δ x6) (dis x1 x6) (wgt x1)) u j := by
  unfold Read.val_main_v45 Read.val_main_v42 Read.val_main_v39 Read.val_main_v41 Read.val_main_v40 Read.val_main_v43
    Read.val_main_cst_8
  refine (aggregate_apply (N := 100000) (by decide) Gen.scatter_S100000x128_S1700000x1_S1700000x128_1_0_0_1_wf
    Gen.gather_S100000x128_S1700000x1_S1700000x128_1_0_n_n_0_1_1128_wf Gen.bcast_S_S100000x128
    Gen.bcast_S1700000_S1700000x1_0 Gen.bcast_S1700000x1_S1700000x128_0_1 (Read.val_main_v44 x6) (Read.val_main_v38 x6)
    (Read.val_main_v32 x0 x2) (Read.val_main_v31 x1 x6) u j).trans ?_
  exact congrArg₂ (fun H v => Gcn.agg (land x6) (σ x6) H v u j)
    (funext fun u => funext fun j => xw1 x0 x2 u j) (funext fun a => norm1 x1 x6 a)

/-- The hidden layer: the first aggregation, the bias, the rectification. -/
theorem hidden (u : Fin 100000) (j : Fin 128) :
    Read.val_main_v49 (F := Ideal) x0 x1 x2 x3 x6 (ix2 u j)
      = Gcn.refHidden (land x6) (σ x6) (δ x6) (dis x1 x6) (wgt x1) (fun u j => x0 (ix2 u j)) (fun i j => x2 (ix2 i j))
          (fun j => x3 (ix1 j)) u j := by
  unfold Read.val_main_v49 Read.val_main_call1_v0 Read.val_main_call1_cst
  refine (relu_apply (N := 100000) (C := 128) Gen.bcast_S_S100000x128 (Read.val_main_v48 x0 x1 x2 x3 x6) u j).trans ?_
  unfold Read.val_main_v48 Read.val_main_v47 Read.val_main_v46
  rw [bias_apply (N := 100000) (C := 128) Gen.bcast_S128_S1x128_1 Gen.bcast_S1x128_S100000x128_0_1
    (Read.val_main_v45 x0 x1 x2 x6) x3 u j, agg1]
  rfl

/-! ## The second layer -/

/-- The second layer's normalised edge weights: the first layer's. -/
theorem norm2 (a : Fin 1700000) :
    Read.val_main_v77 (F := Ideal) x1 x6 (ix1 a) = Gcn.edgeNorm (σ x6) (δ x6) (dis x1 x6) (wgt x1) a := by
  unfold Read.val_main_v77 Read.val_main_v69 Read.val_main_v68 Read.val_main_v76
  refine (edgeNorm_apply (N := 100000) (by decide) Gen.gather_S100000_S1700000x1_S1700000_n_0_n_n_0_1_1_wf
    (Read.val_main_v61 x1 x6) (Read.val_main_v67 x6) (Read.val_main_v75 x6) (Read.val_main_v54 x1) a).trans ?_
  rw [v61_eq, v67_eq, v75_eq, v54_eq]

/-- The second matrix product, of the hidden layer. -/
theorem xw2 (u : Fin 100000) (j : Fin 128) :
    Read.val_main_v78 (F := Ideal) x0 x1 x2 x3 x4 x6 (ix2 u j)
      = Gcn.dense (Gcn.refHidden (land x6) (σ x6) (δ x6) (dis x1 x6) (wgt x1) (fun u j => x0 (ix2 u j))
          (fun i j => x2 (ix2 i j)) (fun j => x3 (ix1 j))) (fun i j => x4 (ix2 i j)) u j := by
  unfold Read.val_main_v78
  refine (dense_apply (N := 100000) (C := 128) none (Read.val_main_v49 x0 x1 x2 x3 x6) x4 u j).trans ?_
  exact congrArg (fun H => Gcn.dense H (fun i j => x4 (ix2 i j)) u j)
    (funext fun u => funext fun j => hidden x0 x1 x2 x3 x6 u j)

/-- The second aggregation. -/
theorem agg2 (r : Fin 100000) (c : Fin 128) :
    Read.val_main_v91 (F := Ideal) x0 x1 x2 x3 x4 x6 (ix2 r c)
      = Gcn.agg (land x6) (σ x6)
          (Gcn.dense (Gcn.refHidden (land x6) (σ x6) (δ x6) (dis x1 x6) (wgt x1) (fun u j => x0 (ix2 u j))
            (fun i j => x2 (ix2 i j)) (fun j => x3 (ix1 j))) (fun i j => x4 (ix2 i j)))
          (Gcn.edgeNorm (σ x6) (δ x6) (dis x1 x6) (wgt x1)) r c := by
  unfold Read.val_main_v91 Read.val_main_v88 Read.val_main_v85 Read.val_main_v87 Read.val_main_v86 Read.val_main_v89
    Read.val_main_cst_19
  refine (aggregate_apply (N := 100000) (by decide) Gen.scatter_S100000x128_S1700000x1_S1700000x128_1_0_0_1_wf
    Gen.gather_S100000x128_S1700000x1_S1700000x128_1_0_n_n_0_1_1128_wf Gen.bcast_S_S100000x128
    Gen.bcast_S1700000_S1700000x1_0 Gen.bcast_S1700000x1_S1700000x128_0_1 (Read.val_main_v90 x6) (Read.val_main_v84 x6)
    (Read.val_main_v78 x0 x1 x2 x3 x4 x6) (Read.val_main_v77 x1 x6) r c).trans ?_
  rw [v90_eq, v84_eq]
  exact congrArg₂ (fun H v => Gcn.agg (land x6) (σ x6) H v r c)
    (funext fun u => funext fun j => xw2 x0 x1 x2 x3 x4 x6 u j) (funext fun a => norm2 x1 x6 a)

/-- The second layer's output on every node: the second aggregation and the bias. -/
theorem out_eq (r : Fin 100000) (c : Fin 128) :
    Read.val_main_v94 (F := Ideal) x0 x1 x2 x3 x4 x5 x6 (ix2 r c)
      = Gcn.refOut (land x6) (σ x6) (δ x6) (dis x1 x6) (wgt x1) (fun u j => x0 (ix2 u j)) (fun i j => x2 (ix2 i j))
          (fun j => x3 (ix1 j)) (fun i j => x4 (ix2 i j)) (fun j => x5 (ix1 j)) r c := by
  unfold Read.val_main_v94 Read.val_main_v93 Read.val_main_v92
  rw [bias_apply (N := 100000) (C := 128) Gen.bcast_S128_S1x128_1 Gen.bcast_S1x128_S100000x128_0_1
    (Read.val_main_v91 x0 x1 x2 x3 x4 x6) x5 r c, agg2]
  rfl

/-! ## The result and the two facts about the names -/

/-- THE REFERENCE'S VALUE: entry `(m, c)` of the result is the second layer's output at the node the `m`-th mask
    index names. -/
theorem ref_value (m : Fin 5000) (c : Fin 128) :
    Read.val_main_v101 (F := Ideal) x0 x1 x2 x3 x4 x5 x6 x7 (ix2 m c)
      = Gcn.refOut (land x6) (σ x6) (δ x6) (dis x1 x6) (wgt x1) (fun u j => x0 (ix2 u j)) (fun i j => x2 (ix2 i j))
          (fun j => x3 (ix1 j)) (fun i j => x4 (ix2 i j)) (fun j => x5 (ix1 j)) (μ x7 m) c := by
  unfold Read.val_main_v101
  refine (GatherRows.gather2_apply (N := 100000) (by decide) Gen.gather_S100000x128_S5000x1_S5000x128_1_0_n_n_0_1_1128_wf
    (Read.val_main_v94 x0 x1 x2 x3 x4 x5 x6) (Read.val_main_v100 x7) m c).trans ?_
  exact out_eq x0 x1 x2 x3 x4 x5 x6 (μ x7 m) c

/-- Every per-node scale is a non-negative number other than `+∞`. -/
theorem ref_dis_ok (u : Fin 100000) : 0 ≤ dis x1 x6 u ∧ dis x1 x6 u ≠ ⊤ := by
  show (0 : EReal) ≤ Read.val_main_v15 (F := Ideal) x1 x6 (ix1 u) ∧ Read.val_main_v15 (F := Ideal) x1 x6 (ix1 u) ≠ (⊤ : EReal)
  unfold Read.val_main_v15 Read.val_main_v13 Read.val_main_v14 Read.val_main_v12 Read.val_main_cst_1 Read.val_main_call0_v1
    Read.val_main_call0_v0 Read.val_main_cst_2
  exact scale_ok (N := 100000) Gen.bcast_S_S100000 (Read.val_main_v11 x1 x6) u

/-- An edge that lands on `r` has `r` as the node its normalised target index names. -/
theorem ref_delta (a : Fin 1700000) (r : Fin 100000) (h : land x6 a r) : δ x6 a = r := by
  have h' : lands (N := 100000) (broadcastInDim S1700000x1 ![0] Gen.bcast_S1700000_S1700000x1_0 (Read.val_main_v6 (F := Ideal) x6)) a r := h
  show rowOf (N := 100000) (by decide) (Read.val_main_v29 (F := Ideal) x6) a = r
  unfold Read.val_main_v29 Read.val_main_v28 Read.val_main_v25 Read.val_main_v27 Read.val_main_v24 Read.val_main_c_4
  exact target_readback (N := 100000) (by decide) Gen.bcast_S_S1700000 Gen.bcast_S1700000_S1700000x1_0
    (Read.val_main_v6 x6) (Read.val_main_v26) a r h'

end Cert.ReferenceIdeal.RefValue

end
-- ==== Proof.lean ====
/-
  A two-layer graph convolution with symmetric degree normalisation, kernel against reference, over the extended reals.

  Both programs build the same graph from the arguments: the edge list with one self loop per node appended, the
  weights with a one per self loop, the weighted in-degree `deg` (the weights added up by target), and the per-node
  scale `dis = deg^(-1/2)` where `deg > 0`, zero elsewhere. The reference weights edge `a` by
  `(dis (source a) · w a) · dis (target a)`, gathers the rows of `X W` by source, multiplies, adds the products up by
  target and adds the bias — twice, rectifying in between — and returns the masked rows. The kernel scales the rows
  of `X W` by `dis` inside its first region, aggregates with the bare weights `w a` on the host, scales the rows of
  the aggregate by `dis` again inside its second region (before the bias, the rectifier and the second product, whose
  rows it scales once more), aggregates again, and multiplies the masked rows by the masked nodes' scales at the end.

  The two agree entry by entry (`Gcn.kerOut_eq_refOut`): the scale of the target node is the same for every edge
  landing there, so it may be taken out of the sum, `(∑ₐ tₐ) · dis r = ∑ₐ (tₐ · dis r)`; on the extended reals this
  needs `dis r` to be a non-negative number below `+∞`, which it always is (the inverse square root of a positive
  extended real is a non-negative real, `+∞ ↦ 0`), and the products are only re-associated. So the precondition — the
  float inputs finite — is not used: the claim holds at every input. Gathers clamp their (normalised) row numbers
  and scatters drop the out-of-range targets, the same on both sides; an edge that lands on row `r` has a
  non-negative target word, which normalisation leaves alone, so the reference's `dis[target]` reads `dis r`.

  The kernel's side: the run's final contents are a fold of the host stretches and the two regions over the launch
  memory (the run of `KernelRun.lean`, by the launch theorem the frame uses); each region's output array is one
  function of the arrays it found (`RegionArrays.lean`: the block a grid point writes is that function's rows, and
  the twenty blocks cover the array); the fold is walked back to the arguments (`KernelFold.lean`) and read entry by
  entry (`KernelEntry.lean`, `KernelResult.lean`). The reference's side is its generated run, read stage by stage
  (`RefValue.lean`) with the gather and scatter lemmas of `LibGraphRead.lean`. The second result — the labels at the
  masked nodes — is the same gather of the same arguments in both programs. The ideal pass rewrote nothing, so
  the kernel's idealization is its own text read at the ideal instance.
-/
import proofs.«152032_j36206574306115_2_alg».proof.Defs
import proofs.«152032_j36206574306115_2_alg».proof.Proof.Gen.Kernel.Frame
import proofs.«152032_j36206574306115_2_alg».proof.Proof.Gen.KernelIdeal.Frame
import proofs.«152032_j36206574306115_2_alg».proof.Proof.Gen.ReferenceIdeal.Run
import proofs.«152032_j36206574306115_2_alg».proof.Proof.Gen.ReferenceIdeal.Read
import proofs.«152032_j36206574306115_2_alg».proof.Proof.Gen.Pre_finite_inputs
import proofs.«152032_j36206574306115_2_alg».proof.Proof.LibGcnSpec
import proofs.«152032_j36206574306115_2_alg».proof.Proof.KernelRun
import proofs.«152032_j36206574306115_2_alg».proof.Proof.KernelResult
import proofs.«152032_j36206574306115_2_alg».proof.Proof.RefValue
import Idealize.ShloMosaic.Adequacy
import Idealize.ShloMosaic.Init

set_option maxRecDepth 16384

noncomputable section

namespace Cert.Proof

open Idealize.ShloMosaic Idealize.ShloMosaic.ValueIdx Idealize.ShloMosaic.TcCoe Idealize.SL.Sem

/-- The word-level kernel terminates, faults nowhere and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- At the ideal instance, from memories agreeing on the arguments, both programs run and end with equal results:
    the masked rows agree entry by entry by `Gcn.kerOut_eq_refOut`, the labels are the same gather. -/
theorem algebraic : Cert.algebraic_KernelIdeal_ReferenceIdeal := by
  intro m ρ m' ρ' _ hagree
  refine ⟨fun c => Cert.KernelIdeal.Gen.W7 m ρ c (Proc.devRef .tc Cert.KernelIdeal.main_v64),
    fun c => Cert.KernelIdeal.Gen.W7 m ρ c (Proc.devRef .tc Cert.KernelIdeal.main_v71), ?_, ?_⟩
  · refine (θ_run Cert.KernelIdeal.defs _ _).mono (fun r h c => ?_) (Cert.KernelIdeal.ValueRun.run_all (F := Ideal) m ρ)
    exact ⟨h c _ (Cert.KernelIdeal.Gen.mem_uc Cert.KernelIdeal.main_v64 (by decide)),
      h c _ (Cert.KernelIdeal.Gen.mem_uc Cert.KernelIdeal.main_v71 (by decide)),
      (h c _ (Cert.KernelIdeal.Gen.mem_uc Cert.KernelIdeal.main_arg0 (by decide))).trans (Cert.KernelIdeal.Gen.W7_main_arg0 m ρ c),
      (h c _ (Cert.KernelIdeal.Gen.mem_uc Cert.KernelIdeal.main_arg1 (by decide))).trans (Cert.KernelIdeal.Gen.W7_main_arg1 m ρ c),
      (h c _ (Cert.KernelIdeal.Gen.mem_uc Cert.KernelIdeal.main_arg2 (by decide))).trans (Cert.KernelIdeal.Gen.W7_main_arg2 m ρ c),
      (h c _ (Cert.KernelIdeal.Gen.mem_uc Cert.KernelIdeal.main_arg3 (by decide))).trans (Cert.KernelIdeal.Gen.W7_main_arg3 m ρ c),
      (h c _ (Cert.KernelIdeal.Gen.mem_uc Cert.KernelIdeal.main_arg4 (by decide))).trans (Cert.KernelIdeal.Gen.W7_main_arg4 m ρ c),
      (h c _ (Cert.KernelIdeal.Gen.mem_uc Cert.KernelIdeal.main_arg5 (by decide))).trans (Cert.KernelIdeal.Gen.W7_main_arg5 m ρ c),
      (h c _ (Cert.KernelIdeal.Gen.mem_uc Cert.KernelIdeal.main_arg6 (by decide))).trans (Cert.KernelIdeal.Gen.W7_main_arg6 m ρ c),
      (h c _ (Cert.KernelIdeal.Gen.mem_uc Cert.KernelIdeal.main_arg7 (by decide))).trans (Cert.KernelIdeal.Gen.W7_main_arg7 m ρ c),
      (h c _ (Cert.KernelIdeal.Gen.mem_uc Cert.KernelIdeal.main_arg8 (by decide))).trans (Cert.KernelIdeal.Gen.W7_main_arg8 m ρ c)⟩
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8⟩ := hagree c
      rw [Cert.ReferenceIdeal.Read.val_main_v101_eq, e0, e1, e2, e3, e4, e5, e6, e7]
      funext idx
      obtain ⟨i, q, rfl⟩ : ∃ (i : Fin 5000) (q : Fin 128), idx = ix2 i q := ⟨idx 0, idx 1, eq_ix2 idx⟩
      rw [Cert.ReferenceIdeal.RefValue.ref_value]
      refine Eq.trans ?_ (Cert.KernelIdeal.Result.first_result m ρ c _ _ _ _ _ _ _ _ rfl rfl rfl rfl rfl rfl rfl rfl i q).symm
      exact (Gcn.kerOut_eq_refOut _ _ _ _ _ (fun u => Cert.ReferenceIdeal.RefValue.ref_dis_ok _ _ u)
        (fun a r h => Cert.ReferenceIdeal.RefValue.ref_delta _ a r h) _ _).symm
    · obtain ⟨e0, e1, e2, e3, e4, e5, e6, e7, e8⟩ := hagree c
      rw [e7, e8]
      exact (Cert.KernelIdeal.Result.second_result m ρ c _ _ rfl rfl).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
